-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_v250) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S1x3x2048x2048 : Shape := ⟨4, ![1, 3, 2048, 2048]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S1x3x2048x2048 : S_.BroadcastsInDim S1x3x2048x2048 (![] : Fin 0 → Fin S1x3x2048x2048.rank)
  reducesTo_S1x3x2048x2048_S_d0_1_2_3 : S1x3x2048x2048.ReducesTo [0, 1, 2, 3] S_

variable [Facts]

def fn {F : FTy → Type} [FloatOps F] (main_arg0 : FVec F S3x33x33x33 .f32) (main_arg1 : FVec F S1x3x2048x2048 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S1x3x2048x2048 .f32 := Host.absf main_arg1
  let main_cst_0 : FVec F S_ .f32 := constant S_ .f32 0x7F800000#32
  let main_v5 : FVec F S1x3x2048x2048 .f32 := broadcastInDim S1x3x2048x2048 ![] bcast_S_S1x3x2048x2048 main_cst_0
  let main_v6 : IVec S1x3x2048x2048 1 := cmpf .olt main_v4 main_v5
  let main_c_1 : IVec S_ 1 := constantI S_ 1 1#1
  let main_v7 : IVec S_ 1 := (fun x v => Host.reduce IntOp.andi x v reducesTo_S1x3x2048x2048_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S1x3x2048x2048 : Shape := ⟨4, ![1, 3, 2048, 2048]⟩
abbrev S33x33x3x33 : Shape := ⟨4, ![33, 33, 3, 33]⟩
abbrev S1089x99 : Shape := ⟨2, ![1089, 99]⟩
abbrev S3x2048x2048 : Shape := ⟨3, ![3, 2048, 2048]⟩
abbrev S3x4194304 : Shape := ⟨2, ![3, 4194304]⟩
abbrev S3x2048 : Shape := ⟨2, ![3, 2048]⟩
abbrev S1x2048 : Shape := ⟨2, ![1, 2048]⟩
abbrev S2048 : Shape := ⟨1, ![2048]⟩
abbrev S2048x1 : Shape := ⟨2, ![2048, 1]⟩
abbrev S1x1089 : Shape := ⟨2, ![1, 1089]⟩
abbrev S2048x1089 : Shape := ⟨2, ![2048, 1089]⟩
abbrev S1x33 : Shape := ⟨2, ![1, 33]⟩
abbrev S2048x33 : Shape := ⟨2, ![2048, 33]⟩
abbrev S2048x99 : Shape := ⟨2, ![2048, 99]⟩
abbrev S1x3x33x33x33 : Shape := ⟨5, ![1, 3, 33, 33, 33]⟩

abbrev nBuf : Space → Nat
  | .hbm => 10
  | .vmem => 5
  | .smem => 0
  | _ => 0

abbrev bufTy : (tb : Table) → Fin (tcTables nBuf tb) → BufTy
  | .hbm, ⟨0, _⟩ => ⟨S3x33x33x33, .f32⟩
  | .hbm, ⟨1, _⟩ => ⟨S1x3x2048x2048, .f32⟩
  | .hbm, ⟨2, _⟩ => ⟨S33x33x3x33, .f32⟩
  | .hbm, ⟨3, _⟩ => ⟨S1089x99, .f32⟩
  | .hbm, ⟨4, _⟩ => ⟨S1089x99, .bf16⟩
  | .hbm, ⟨5, _⟩ => ⟨S3x2048x2048, .f32⟩
  | .hbm, ⟨6, _⟩ => ⟨S3x4194304, .f32⟩
  | .hbm, ⟨7, _⟩ => ⟨S3x4194304, .f32⟩
  | .hbm, ⟨8, _⟩ => ⟨S1x3x2048x2048, .f32⟩
  | .hbm, ⟨9, _⟩ => ⟨S1x3x33x33x33, .f32⟩
  | .local _ .vmem, ⟨0, _⟩ => ⟨S1089x99, .bf16⟩
  | .local _ .vmem, ⟨1, _⟩ => ⟨S3x2048, .f32⟩
  | .local _ .vmem, ⟨2, _⟩ => ⟨S3x2048, .f32⟩
  | .local _ .vmem, ⟨3, _⟩ => ⟨S3x2048, .f32⟩
  | .local _ .vmem, ⟨4, _⟩ => ⟨S3x2048, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1089x99 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S3x33x33x33_S33x33x3x33_1_2_0_3 : S3x33x33x33.Transposes [1, 2, 0, 3] S33x33x3x33
  shapeCasts_S33x33x3x33_S1089x99 : S33x33x3x33.ShapeCasts S1089x99
  bitsLt_bf16_f32 : FTy.bits .bf16 < FTy.bits .f32
  shapeCasts_S1x3x2048x2048_S3x2048x2048 : S1x3x2048x2048.ShapeCasts S3x2048x2048
  shapeCasts_S3x2048x2048_S3x4194304 : S3x2048x2048.ShapeCasts S3x4194304
  inb_S3x2048_S1x2048_0_0 : ∀ a, (![0, 0] : Fin 2 → Nat) a + S1x2048.size a ≤ S3x2048.size a
  h_S1x2048 : 0 < S1x2048.numel
  shapeCasts_S1x2048_S2048 : S1x2048.ShapeCasts S2048
  inb_S3x2048_S1x2048_1_0 : ∀ a, (![1, 0] : Fin 2 → Nat) a + S1x2048.size a ≤ S3x2048.size a
  inb_S3x2048_S1x2048_2_0 : ∀ a, (![2, 0] : Fin 2 → Nat) a + S1x2048.size a ≤ S3x2048.size a
  shapeCasts_S2048_S2048x1 : S2048.ShapeCasts S2048x1
  iota_S1x1089_d1_w32 : S1x1089.Iotas .tc 32 [1]
  natLt_1_32 : 1 < 32
  broadcasts_S1x1089_S2048x1089 : S1x1089.Broadcasts S2048x1089
  broadcasts_S2048x1_S2048x1089 : S2048x1.Broadcasts S2048x1089
  iota_S1x33_d1_w32 : S1x33.Iotas .tc 32 [1]
  broadcasts_S1x33_S2048x33 : S1x33.Broadcasts S2048x33
  broadcasts_S2048x1_S2048x33 : S2048x1.Broadcasts S2048x33
  inb_S1089x99_S1089x99_0_0 : ∀ a, (![0, 0] : Fin 2 → Nat) a + S1089x99.size a ≤ S1089x99.size a
  h_S1089x99 : 0 < S1089x99.numel
  shapeCasts_S1089x99_S1089x99 : S1089x99.ShapeCasts S1089x99
  slices_S2048x99_o0_0_S2048x33 : S2048x99.Slices ![0, 0] S2048x33
  reduces_S2048x33_S2048 : S2048x33.Reduces [1] S2048
  shapeCasts_S2048_S1x2048 : S2048.ShapeCasts S1x2048
  slices_S2048x99_o0_33_S2048x33 : S2048x99.Slices ![0, 33] S2048x33
  slices_S2048x99_o0_66_S2048x33 : S2048x99.Slices ![0, 66] S2048x33
  shapeCasts_S3x4194304_S1x3x2048x2048 : S3x4194304.ShapeCasts S1x3x2048x2048
  bcast_S3x33x33x33_S1x3x33x33x33_1_2_3_4 : S3x33x33x33.BroadcastsInDim S1x3x33x33x33 (![1, 2, 3, 4] : Fin 4 → Fin S1x3x33x33x33.rank)
  dot_S2048x1089_S1089x99_S2048x99_1_0_0_1_n_n_wf : DotDims.WF S2048x1089 S1089x99 S2048x99 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1089x99.size a ≤ S1089x99.size a
  hwx0_0 : ∀ i : grid0.Coords, EltTy.bits .bf16 = 32 ∨ (Rect.block (s := S1089x99) S1089x99.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x4194304.size a
  hwx0_1 : ∀ i : grid0.Coords, EltTy.bits .f32 = 32 ∨ (Rect.block (s := S3x4194304) S3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2048.size a ≤ S3x4194304.size a
  hwx0_2 : ∀ i : grid0.Coords, EltTy.bits .f32 = 32 ∨ (Rect.block (s := S3x4194304) S3x2048.size (cc0_transform_2 i) (hinb0_2 i)).WholeWords (EltTy.packing .f32)

variable [Facts₀]

def dot_S2048x1089_S1089x99_S2048x99_1_0_0_1_n_n : DotDims S2048x1089 S1089x99 S2048x99 where
  lhsContracting := [1]
  rhsContracting := [0]
  lhsNonContracting := [0]
  rhsNonContracting := [1]
  lhsBatch := []
  rhsBatch := []
  wf := dot_S2048x1089_S1089x99_S2048x99_1_0_0_1_n_n_wf

abbrev win0_0 : Pipeline.Window sig grid0 :=
  Pipeline.Window.ofSpec (Memref.whole main_v2) S1089x99.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S1x3x2048x2048 : Shape := ⟨4, ![1, 3, 2048, 2048]⟩
abbrev S_ : Shape := ⟨0, ![]⟩
abbrev S1x1x2048x2048 : Shape := ⟨4, ![1, 1, 2048, 2048]⟩
abbrev S1x2048x2048 : Shape := ⟨3, ![1, 2048, 2048]⟩
abbrev S1x2048x2048x1 : Shape := ⟨4, ![1, 2048, 2048, 1]⟩
abbrev S1x2048x2048x3 : Shape := ⟨4, ![1, 2048, 2048, 3]⟩
abbrev S3x1x2048x2048 : Shape := ⟨4, ![3, 1, 2048, 2048]⟩
abbrev S1x3x33x33x33 : Shape := ⟨5, ![1, 3, 33, 33, 33]⟩

abbrev nBuf : Space → Nat
  | .hbm => 327
  | .vmem => 0
  | .smem => 0
  | _ => 0

abbrev hbmTy0_0 (i : Nat) : BufTy := match i % 128 with
  | 0 => ⟨S3x33x33x33, .f32⟩
  | 1 => ⟨S1x3x2048x2048, .f32⟩
  | 2 => ⟨S_, .f32⟩
  | 3 => ⟨S1x3x2048x2048, .f32⟩
  | 4 => ⟨S1x3x2048x2048, .f32⟩
  | 5 => ⟨S_, .f32⟩
  | 6 => ⟨S1x3x2048x2048, .f32⟩
  | 7 => ⟨S1x3x2048x2048, .f32⟩
  | 8 => ⟨S_, .f32⟩
  | 9 => ⟨S1x3x2048x2048, .f32⟩
  | 10 => ⟨S1x3x2048x2048, .f32⟩
  | 11 => ⟨S_, .f32⟩
  | 12 => ⟨S1x3x2048x2048, .f32⟩
  | 13 => ⟨S1x3x2048x2048, .f32⟩
  | 14 => ⟨S_, .f32⟩
  | 15 => ⟨S1x3x2048x2048, .f32⟩
  | 16 => ⟨S1x3x2048x2048, .f32⟩
  | 17 => ⟨S_, .f32⟩
  | 18 => ⟨S_, .f32⟩
  | 19 => ⟨S_, .f32⟩
  | 20 => ⟨S1x3x2048x2048, .f32⟩
  | 21 => ⟨S1x3x2048x2048, .f32⟩
  | 22 => ⟨S_, .f32⟩
  | 23 => ⟨S1x3x2048x2048, .f32⟩
  | 24 => ⟨S1x3x2048x2048, .f32⟩
  | 25 => ⟨S1x1x2048x2048, .f32⟩
  | 26 => ⟨S1x2048x2048, .f32⟩
  | 27 => ⟨S1x1x2048x2048, .f32⟩
  | 28 => ⟨S1x2048x2048, .f32⟩
  | 29 => ⟨S1x1x2048x2048, .f32⟩
  | 30 => ⟨S1x2048x2048, .f32⟩
  | 31 => ⟨S1x2048x2048, .f32⟩
  | 32 => ⟨S1x2048x2048, .f32⟩
  | 33 => ⟨S1x2048x2048, .f32⟩
  | 34 => ⟨S1x2048x2048, .f32⟩
  | 35 => ⟨S1x2048x2048, .f32⟩
  | 36 => ⟨S1x2048x2048, .f32⟩
  | 37 => ⟨S1x2048x2048, .i32⟩
  | 38 => ⟨S1x2048x2048, .i32⟩
  | 39 => ⟨S1x2048x2048, .i32⟩
  | 40 => ⟨S_, .i32⟩
  | 41 => ⟨S1x2048x2048, .i32⟩
  | 42 => ⟨S1x2048x2048, .i32⟩
  | 43 => ⟨S_, .i32⟩
  | 44 => ⟨S1x2048x2048, .i32⟩
  | 45 => ⟨S1x2048x2048, .i32⟩
  | 46 => ⟨S_, .i32⟩
  | 47 => ⟨S1x2048x2048, .i32⟩
  | 48 => ⟨S1x2048x2048, .i32⟩
  | 49 => ⟨S_, .i32⟩
  | 50 => ⟨S1x2048x2048, .i32⟩
  | 51 => ⟨S1x2048x2048, .i32⟩
  | 52 => ⟨S_, .i32⟩
  | 53 => ⟨S1x2048x2048, .i32⟩
  | 54 => ⟨S1x2048x2048, .i32⟩
  | 55 => ⟨S_, .i32⟩
  | 56 => ⟨S1x2048x2048, .i32⟩
  | 57 => ⟨S1x2048x2048, .i32⟩
  | 58 => ⟨S_, .i32⟩
  | 59 => ⟨S1x2048x2048, .i32⟩
  | 60 => ⟨S1x2048x2048, .i1⟩
  | 61 => ⟨S_, .i32⟩
  | 62 => ⟨S1x2048x2048, .i32⟩
  | 63 => ⟨S1x2048x2048, .i32⟩
  | 64 => ⟨S1x2048x2048, .i32⟩
  | 65 => ⟨S_, .i32⟩
  | 66 => ⟨S1x2048x2048, .i32⟩
  | 67 => ⟨S1x2048x2048, .i1⟩
  | 68 => ⟨S_, .i32⟩
  | 69 => ⟨S1x2048x2048, .i32⟩
  | 70 => ⟨S1x2048x2048, .i32⟩
  | 71 => ⟨S1x2048x2048, .i32⟩
  | 72 => ⟨S_, .i32⟩
  | 73 => ⟨S1x2048x2048, .i32⟩
  | 74 => ⟨S1x2048x2048, .i1⟩
  | 75 => ⟨S_, .i32⟩
  | 76 => ⟨S1x2048x2048, .i32⟩
  | 77 => ⟨S1x2048x2048, .i32⟩
  | 78 => ⟨S1x2048x2048, .i32⟩
  | 79 => ⟨S1x2048x2048x1, .i32⟩
  | 80 => ⟨S1x2048x2048x1, .i32⟩
  | 81 => ⟨S1x2048x2048x1, .i32⟩
  | 82 => ⟨S1x2048x2048x3, .i32⟩
  | 83 => ⟨S3x1x2048x2048, .f32⟩
  | 84 => ⟨S_, .i32⟩
  | 85 => ⟨S1x2048x2048, .i32⟩
  | 86 => ⟨S1x2048x2048, .i1⟩
  | 87 => ⟨S_, .i32⟩
  | 88 => ⟨S1x2048x2048, .i32⟩
  | 89 => ⟨S1x2048x2048, .i32⟩
  | 90 => ⟨S1x2048x2048, .i32⟩
  | 91 => ⟨S_, .i32⟩
  | 92 => ⟨S1x2048x2048, .i32⟩
  | 93 => ⟨S1x2048x2048, .i1⟩
  | 94 => ⟨S_, .i32⟩
  | 95 => ⟨S1x2048x2048, .i32⟩
  | 96 => ⟨S1x2048x2048, .i32⟩
  | 97 => ⟨S1x2048x2048, .i32⟩
  | 98 => ⟨S_, .i32⟩
  | 99 => ⟨S1x2048x2048, .i32⟩
  | 100 => ⟨S1x2048x2048, .i1⟩
  | 101 => ⟨S_, .i32⟩
  | 102 => ⟨S1x2048x2048, .i32⟩
  | 103 => ⟨S1x2048x2048, .i32⟩
  | 104 => ⟨S1x2048x2048, .i32⟩
  | 105 => ⟨S1x2048x2048x1, .i32⟩
  | 106 => ⟨S1x2048x2048x1, .i32⟩
  | 107 => ⟨S1x2048x2048x1, .i32⟩
  | 108 => ⟨S1x2048x2048x3, .i32⟩
  | 109 => ⟨S3x1x2048x2048, .f32⟩
  | 110 => ⟨S_, .i32⟩
  | 111 => ⟨S1x2048x2048, .i32⟩
  | 112 => ⟨S1x2048x2048, .i1⟩
  | 113 => ⟨S_, .i32⟩
  | 114 => ⟨S1x2048x2048, .i32⟩
  | 115 => ⟨S1x2048x2048, .i32⟩
  | 116 => ⟨S1x2048x2048, .i32⟩
  | 117 => ⟨S_, .i32⟩
  | 118 => ⟨S1x2048x2048, .i32⟩
  | 119 => ⟨S1x2048x2048, .i1⟩
  | 120 => ⟨S_, .i32⟩
  | 121 => ⟨S1x2048x2048, .i32⟩
  | 122 => ⟨S1x2048x2048, .i32⟩
  | 123 => ⟨S1x2048x2048, .i32⟩
  | 124 => ⟨S_, .i32⟩
  | 125 => ⟨S1x2048x2048, .i32⟩
  | 126 => ⟨S1x2048x2048, .i1⟩
  | 127 => ⟨S_, .i32⟩
  | _ => ⟨S3x33x33x33, .f32⟩

abbrev hbmTy0_1 (i : Nat) : BufTy := match i % 128 with
  | 0 => ⟨S1x2048x2048, .i32⟩
  | 1 => ⟨S1x2048x2048, .i32⟩
  | 2 => ⟨S1x2048x2048, .i32⟩
  | 3 => ⟨S1x2048x2048x1, .i32⟩
  | 4 => ⟨S1x2048x2048x1, .i32⟩
  | 5 => ⟨S1x2048x2048x1, .i32⟩
  | 6 => ⟨S1x2048x2048x3, .i32⟩
  | 7 => ⟨S3x1x2048x2048, .f32⟩
  | 8 => ⟨S_, .i32⟩
  | 9 => ⟨S1x2048x2048, .i32⟩
  | 10 => ⟨S1x2048x2048, .i1⟩
  | 11 => ⟨S_, .i32⟩
  | 12 => ⟨S1x2048x2048, .i32⟩
  | 13 => ⟨S1x2048x2048, .i32⟩
  | 14 => ⟨S1x2048x2048, .i32⟩
  | 15 => ⟨S_, .i32⟩
  | 16 => ⟨S1x2048x2048, .i32⟩
  | 17 => ⟨S1x2048x2048, .i1⟩
  | 18 => ⟨S_, .i32⟩
  | 19 => ⟨S1x2048x2048, .i32⟩
  | 20 => ⟨S1x2048x2048, .i32⟩
  | 21 => ⟨S1x2048x2048, .i32⟩
  | 22 => ⟨S_, .i32⟩
  | 23 => ⟨S1x2048x2048, .i32⟩
  | 24 => ⟨S1x2048x2048, .i1⟩
  | 25 => ⟨S_, .i32⟩
  | 26 => ⟨S1x2048x2048, .i32⟩
  | 27 => ⟨S1x2048x2048, .i32⟩
  | 28 => ⟨S1x2048x2048, .i32⟩
  | 29 => ⟨S1x2048x2048x1, .i32⟩
  | 30 => ⟨S1x2048x2048x1, .i32⟩
  | 31 => ⟨S1x2048x2048x1, .i32⟩
  | 32 => ⟨S1x2048x2048x3, .i32⟩
  | 33 => ⟨S3x1x2048x2048, .f32⟩
  | 34 => ⟨S_, .i32⟩
  | 35 => ⟨S1x2048x2048, .i32⟩
  | 36 => ⟨S1x2048x2048, .i1⟩
  | 37 => ⟨S_, .i32⟩
  | 38 => ⟨S1x2048x2048, .i32⟩
  | 39 => ⟨S1x2048x2048, .i32⟩
  | 40 => ⟨S1x2048x2048, .i32⟩
  | 41 => ⟨S_, .i32⟩
  | 42 => ⟨S1x2048x2048, .i32⟩
  | 43 => ⟨S1x2048x2048, .i1⟩
  | 44 => ⟨S_, .i32⟩
  | 45 => ⟨S1x2048x2048, .i32⟩
  | 46 => ⟨S1x2048x2048, .i32⟩
  | 47 => ⟨S1x2048x2048, .i32⟩
  | 48 => ⟨S_, .i32⟩
  | 49 => ⟨S1x2048x2048, .i32⟩
  | 50 => ⟨S1x2048x2048, .i1⟩
  | 51 => ⟨S_, .i32⟩
  | 52 => ⟨S1x2048x2048, .i32⟩
  | 53 => ⟨S1x2048x2048, .i32⟩
  | 54 => ⟨S1x2048x2048, .i32⟩
  | 55 => ⟨S1x2048x2048x1, .i32⟩
  | 56 => ⟨S1x2048x2048x1, .i32⟩
  | 57 => ⟨S1x2048x2048x1, .i32⟩
  | 58 => ⟨S1x2048x2048x3, .i32⟩
  | 59 => ⟨S3x1x2048x2048, .f32⟩
  | 60 => ⟨S_, .i32⟩
  | 61 => ⟨S1x2048x2048, .i32⟩
  | 62 => ⟨S1x2048x2048, .i1⟩
  | 63 => ⟨S_, .i32⟩
  | 64 => ⟨S1x2048x2048, .i32⟩
  | 65 => ⟨S1x2048x2048, .i32⟩
  | 66 => ⟨S1x2048x2048, .i32⟩
  | 67 => ⟨S_, .i32⟩
  | 68 => ⟨S1x2048x2048, .i32⟩
  | 69 => ⟨S1x2048x2048, .i1⟩
  | 70 => ⟨S_, .i32⟩
  | 71 => ⟨S1x2048x2048, .i32⟩
  | 72 => ⟨S1x2048x2048, .i32⟩
  | 73 => ⟨S1x2048x2048, .i32⟩
  | 74 => ⟨S_, .i32⟩
  | 75 => ⟨S1x2048x2048, .i32⟩
  | 76 => ⟨S1x2048x2048, .i1⟩
  | 77 => ⟨S_, .i32⟩
  | 78 => ⟨S1x2048x2048, .i32⟩
  | 79 => ⟨S1x2048x2048, .i32⟩
  | 80 => ⟨S1x2048x2048, .i32⟩
  | 81 => ⟨S1x2048x2048x1, .i32⟩
  | 82 => ⟨S1x2048x2048x1, .i32⟩
  | 83 => ⟨S1x2048x2048x1, .i32⟩
  | 84 => ⟨S1x2048x2048x3, .i32⟩
  | 85 => ⟨S3x1x2048x2048, .f32⟩
  | 86 => ⟨S_, .i32⟩
  | 87 => ⟨S1x2048x2048, .i32⟩
  | 88 => ⟨S1x2048x2048, .i1⟩
  | 89 => ⟨S_, .i32⟩
  | 90 => ⟨S1x2048x2048, .i32⟩
  | 91 => ⟨S1x2048x2048, .i32⟩
  | 92 => ⟨S1x2048x2048, .i32⟩
  | 93 => ⟨S_, .i32⟩
  | 94 => ⟨S1x2048x2048, .i32⟩
  | 95 => ⟨S1x2048x2048, .i1⟩
  | 96 => ⟨S_, .i32⟩
  | 97 => ⟨S1x2048x2048, .i32⟩
  | 98 => ⟨S1x2048x2048, .i32⟩
  | 99 => ⟨S1x2048x2048, .i32⟩
  | 100 => ⟨S_, .i32⟩
  | 101 => ⟨S1x2048x2048, .i32⟩
  | 102 => ⟨S1x2048x2048, .i1⟩
  | 103 => ⟨S_, .i32⟩
  | 104 => ⟨S1x2048x2048, .i32⟩
  | 105 => ⟨S1x2048x2048, .i32⟩
  | 106 => ⟨S1x2048x2048, .i32⟩
  | 107 => ⟨S1x2048x2048x1, .i32⟩
  | 108 => ⟨S1x2048x2048x1, .i32⟩
  | 109 => ⟨S1x2048x2048x1, .i32⟩
  | 110 => ⟨S1x2048x2048x3, .i32⟩
  | 111 => ⟨S3x1x2048x2048, .f32⟩
  | 112 => ⟨S_, .i32⟩
  | 113 => ⟨S1x2048x2048, .i32⟩
  | 114 => ⟨S1x2048x2048, .i1⟩
  | 115 => ⟨S_, .i32⟩
  | 116 => ⟨S1x2048x2048, .i32⟩
  | 117 => ⟨S1x2048x2048, .i32⟩
  | 118 => ⟨S1x2048x2048, .i32⟩
  | 119 => ⟨S_, .i32⟩
  | 120 => ⟨S1x2048x2048, .i32⟩
  | 121 => ⟨S1x2048x2048, .i1⟩
  | 122 => ⟨S_, .i32⟩
  | 123 => ⟨S1x2048x2048, .i32⟩
  | 124 => ⟨S1x2048x2048, .i32⟩
  | 125 => ⟨S1x2048x2048, .i32⟩
  | 126 => ⟨S_, .i32⟩
  | 127 => ⟨S1x2048x2048, .i32⟩
  | _ => ⟨S3x33x33x33, .f32⟩

abbrev hbmTy0_2 (i : Nat) : BufTy := match i % 128 with
  | 0 => ⟨S1x2048x2048, .i1⟩
  | 1 => ⟨S_, .i32⟩
  | 2 => ⟨S1x2048x2048, .i32⟩
  | 3 => ⟨S1x2048x2048, .i32⟩
  | 4 => ⟨S1x2048x2048, .i32⟩
  | 5 => ⟨S1x2048x2048x1, .i32⟩
  | 6 => ⟨S1x2048x2048x1, .i32⟩
  | 7 => ⟨S1x2048x2048x1, .i32⟩
  | 8 => ⟨S1x2048x2048x3, .i32⟩
  | 9 => ⟨S3x1x2048x2048, .f32⟩
  | 10 => ⟨S1x1x2048x2048, .f32⟩
  | 11 => ⟨S1x1x2048x2048, .f32⟩
  | 12 => ⟨S1x1x2048x2048, .f32⟩
  | 13 => ⟨S_, .f32⟩
  | 14 => ⟨S1x1x2048x2048, .f32⟩
  | 15 => ⟨S1x1x2048x2048, .f32⟩
  | 16 => ⟨S3x1x2048x2048, .f32⟩
  | 17 => ⟨S3x1x2048x2048, .f32⟩
  | 18 => ⟨S3x1x2048x2048, .f32⟩
  | 19 => ⟨S3x1x2048x2048, .f32⟩
  | 20 => ⟨S3x1x2048x2048, .f32⟩
  | 21 => ⟨S_, .f32⟩
  | 22 => ⟨S1x1x2048x2048, .f32⟩
  | 23 => ⟨S1x1x2048x2048, .f32⟩
  | 24 => ⟨S3x1x2048x2048, .f32⟩
  | 25 => ⟨S3x1x2048x2048, .f32⟩
  | 26 => ⟨S3x1x2048x2048, .f32⟩
  | 27 => ⟨S3x1x2048x2048, .f32⟩
  | 28 => ⟨S3x1x2048x2048, .f32⟩
  | 29 => ⟨S_, .f32⟩
  | 30 => ⟨S1x1x2048x2048, .f32⟩
  | 31 => ⟨S1x1x2048x2048, .f32⟩
  | 32 => ⟨S3x1x2048x2048, .f32⟩
  | 33 => ⟨S3x1x2048x2048, .f32⟩
  | 34 => ⟨S3x1x2048x2048, .f32⟩
  | 35 => ⟨S3x1x2048x2048, .f32⟩
  | 36 => ⟨S3x1x2048x2048, .f32⟩
  | 37 => ⟨S_, .f32⟩
  | 38 => ⟨S1x1x2048x2048, .f32⟩
  | 39 => ⟨S1x1x2048x2048, .f32⟩
  | 40 => ⟨S3x1x2048x2048, .f32⟩
  | 41 => ⟨S3x1x2048x2048, .f32⟩
  | 42 => ⟨S3x1x2048x2048, .f32⟩
  | 43 => ⟨S3x1x2048x2048, .f32⟩
  | 44 => ⟨S3x1x2048x2048, .f32⟩
  | 45 => ⟨S_, .f32⟩
  | 46 => ⟨S1x1x2048x2048, .f32⟩
  | 47 => ⟨S1x1x2048x2048, .f32⟩
  | 48 => ⟨S3x1x2048x2048, .f32⟩
  | 49 => ⟨S3x1x2048x2048, .f32⟩
  | 50 => ⟨S3x1x2048x2048, .f32⟩
  | 51 => ⟨S3x1x2048x2048, .f32⟩
  | 52 => ⟨S3x1x2048x2048, .f32⟩
  | 53 => ⟨S_, .f32⟩
  | 54 => ⟨S1x1x2048x2048, .f32⟩
  | 55 => ⟨S1x1x2048x2048, .f32⟩
  | 56 => ⟨S3x1x2048x2048, .f32⟩
  | 57 => ⟨S3x1x2048x2048, .f32⟩
  | 58 => ⟨S3x1x2048x2048, .f32⟩
  | 59 => ⟨S3x1x2048x2048, .f32⟩
  | 60 => ⟨S3x1x2048x2048, .f32⟩
  | 61 => ⟨S_, .f32⟩
  | 62 => ⟨S1x1x2048x2048, .f32⟩
  | 63 => ⟨S1x1x2048x2048, .f32⟩
  | 64 => ⟨S3x1x2048x2048, .f32⟩
  | 65 => ⟨S3x1x2048x2048, .f32⟩
  | 66 => ⟨S3x1x2048x2048, .f32⟩
  | 67 => ⟨S3x1x2048x2048, .f32⟩
  | 68 => ⟨S3x1x2048x2048, .f32⟩
  | 69 => ⟨S1x3x2048x2048, .f32⟩
  | 70 => ⟨S1x3x33x33x33, .f32⟩
  | _ => ⟨S3x33x33x33, .f32⟩

abbrev hbmTy (i : Nat) : BufTy := match i / 128 with
  | 0 => hbmTy0_0 i
  | 1 => hbmTy0_1 i
  | 2 => hbmTy0_2 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_c_10 : Ref sig .tc := ⟨.hbm, 55, rfl⟩
abbrev main_v36 : Ref sig .tc := ⟨.hbm, 56, rfl⟩
abbrev main_v37 : Ref sig .tc := ⟨.hbm, 57, rfl⟩
abbrev main_c_11 : Ref sig .tc := ⟨.hbm, 58, rfl⟩
abbrev main_v38 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_13 : Ref sig .tc := ⟨.hbm, 65, rfl⟩
abbrev main_v43 : Ref sig .tc := ⟨.hbm, 66, rfl⟩
abbrev main_v44 : Ref sig .tc := ⟨.hbm, 67, rfl⟩
abbrev main_c_14 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_15 : Ref sig .tc := ⟨.hbm, 72, rfl⟩
abbrev main_v48 : Ref sig .tc := ⟨.hbm, 73, rfl⟩
abbrev main_v49 : Ref sig .tc := ⟨.hbm, 74, rfl⟩
abbrev main_c_16 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_17 : Ref sig .tc := ⟨.hbm, 84, rfl⟩
abbrev main_v58 : Ref sig .tc := ⟨.hbm, 85, rfl⟩
abbrev main_v59 : Ref sig .tc := ⟨.hbm, 86, rfl⟩
abbrev main_c_18 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_19 : Ref sig .tc := ⟨.hbm, 91, rfl⟩
abbrev main_v63 : Ref sig .tc := ⟨.hbm, 92, rfl⟩
abbrev main_v64 : Ref sig .tc := ⟨.hbm, 93, rfl⟩
abbrev main_c_20 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_21 : Ref sig .tc := ⟨.hbm, 98, rfl⟩
abbrev main_v68 : Ref sig .tc := ⟨.hbm, 99, rfl⟩
abbrev main_v69 : Ref sig .tc := ⟨.hbm, 100, rfl⟩
abbrev main_c_22 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_23 : Ref sig .tc := ⟨.hbm, 110, rfl⟩
abbrev main_v78 : Ref sig .tc := ⟨.hbm, 111, rfl⟩
abbrev main_v79 : Ref sig .tc := ⟨.hbm, 112, rfl⟩
abbrev main_c_24 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_25 : Ref sig .tc := ⟨.hbm, 117, rfl⟩
abbrev main_v83 : Ref sig .tc := ⟨.hbm, 118, rfl⟩
abbrev main_v84 : Ref sig .tc := ⟨.hbm, 119, rfl⟩
abbrev main_c_26 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_27 : Ref sig .tc := ⟨.hbm, 124, rfl⟩
abbrev main_v88 : Ref sig .tc := ⟨.hbm, 125, rfl⟩
abbrev main_v89 : Ref sig .tc := ⟨.hbm, 126, rfl⟩
abbrev main_c_28 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_29 : Ref sig .tc := ⟨.hbm, 136, rfl⟩
abbrev main_v98 : Ref sig .tc := ⟨.hbm, 137, rfl⟩
abbrev main_v99 : Ref sig .tc := ⟨.hbm, 138, rfl⟩
abbrev main_c_30 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_31 : Ref sig .tc := ⟨.hbm, 143, rfl⟩
abbrev main_v103 : Ref sig .tc := ⟨.hbm, 144, rfl⟩
abbrev main_v104 : Ref sig .tc := ⟨.hbm, 145, rfl⟩
abbrev main_c_32 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_33 : Ref sig .tc := ⟨.hbm, 150, rfl⟩
abbrev main_v108 : Ref sig .tc := ⟨.hbm, 151, rfl⟩
abbrev main_v109 : Ref sig .tc := ⟨.hbm, 152, rfl⟩
abbrev main_c_34 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_35 : Ref sig .tc := ⟨.hbm, 162, rfl⟩
abbrev main_v118 : Ref sig .tc := ⟨.hbm, 163, rfl⟩
abbrev main_v119 : Ref sig .tc := ⟨.hbm, 164, rfl⟩
abbrev main_c_36 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_37 : Ref sig .tc := ⟨.hbm, 169, rfl⟩
abbrev main_v123 : Ref sig .tc := ⟨.hbm, 170, rfl⟩
abbrev main_v124 : Ref sig .tc := ⟨.hbm, 171, rfl⟩
abbrev main_c_38 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_39 : Ref sig .tc := ⟨.hbm, 176, rfl⟩
abbrev main_v128 : Ref sig .tc := ⟨.hbm, 177, rfl⟩
abbrev main_v129 : Ref sig .tc := ⟨.hbm, 178, rfl⟩
abbrev main_c_40 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_c_41 : Ref sig .tc := ⟨.hbm, 188, rfl⟩
abbrev main_v138 : Ref sig .tc := ⟨.hbm, 189, rfl⟩
abbrev main_v139 : Ref sig .tc := ⟨.hbm, 190, rfl⟩
abbrev main_c_42 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_c_43 : Ref sig .tc := ⟨.hbm, 195, rfl⟩
abbrev main_v143 : Ref sig .tc := ⟨.hbm, 196, rfl⟩
abbrev main_v144 : Ref sig .tc := ⟨.hbm, 197, rfl⟩
abbrev main_c_44 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_c_45 : Ref sig .tc := ⟨.hbm, 202, rfl⟩
abbrev main_v148 : Ref sig .tc := ⟨.hbm, 203, rfl⟩
abbrev main_v149 : Ref sig .tc := ⟨.hbm, 204, rfl⟩
abbrev main_c_46 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_c_47 : Ref sig .tc := ⟨.hbm, 214, rfl⟩
abbrev main_v158 : Ref sig .tc := ⟨.hbm, 215, rfl⟩
abbrev main_v159 : Ref sig .tc := ⟨.hbm, 216, rfl⟩
abbrev main_c_48 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_c_49 : Ref sig .tc := ⟨.hbm, 221, rfl⟩
abbrev main_v163 : Ref sig .tc := ⟨.hbm, 222, rfl⟩
abbrev main_v164 : Ref sig .tc := ⟨.hbm, 223, rfl⟩
abbrev main_c_50 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_c_51 : Ref sig .tc := ⟨.hbm, 228, rfl⟩
abbrev main_v168 : Ref sig .tc := ⟨.hbm, 229, rfl⟩
abbrev main_v169 : Ref sig .tc := ⟨.hbm, 230, rfl⟩
abbrev main_c_52 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_c_53 : Ref sig .tc := ⟨.hbm, 240, rfl⟩
abbrev main_v178 : Ref sig .tc := ⟨.hbm, 241, rfl⟩
abbrev main_v179 : Ref sig .tc := ⟨.hbm, 242, rfl⟩
abbrev main_c_54 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_55 : Ref sig .tc := ⟨.hbm, 247, rfl⟩
abbrev main_v183 : Ref sig .tc := ⟨.hbm, 248, rfl⟩
abbrev main_v184 : Ref sig .tc := ⟨.hbm, 249, rfl⟩
abbrev main_c_56 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_c_57 : Ref sig .tc := ⟨.hbm, 254, rfl⟩
abbrev main_v188 : Ref sig .tc := ⟨.hbm, 255, rfl⟩
abbrev main_v189 : Ref sig .tc := ⟨.hbm, 256, rfl⟩
abbrev main_c_58 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_cst_59 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_cst_60 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_cst_61 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_cst_62 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_cst_63 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_cst_64 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_cst_65 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩

abbrev nD : Nat := 1
abbrev τ : Topo := Topo.v7x

variable {F : FTy → Type} [FloatOps F]

class Facts₀ : Prop where
  bcast_S_S1x3x2048x2048 : S_.BroadcastsInDim S1x3x2048x2048 (![] : Fin 0 → Fin S1x3x2048x2048.rank)
  slices_S1x3x2048x2048_S1x1x2048x2048_0_0_0_0 : S1x3x2048x2048.Slices ![0, 0, 0, 0] S1x1x2048x2048
  shapeCasts_S1x1x2048x2048_S1x2048x2048 : S1x1x2048x2048.ShapeCasts S1x2048x2048
  slices_S1x3x2048x2048_S1x1x2048x2048_0_1_0_0 : S1x3x2048x2048.Slices ![0, 1, 0, 0] S1x1x2048x2048
  slices_S1x3x2048x2048_S1x1x2048x2048_0_2_0_0 : S1x3x2048x2048.Slices ![0, 2, 0, 0] S1x1x2048x2048
  bcast_S_S1x2048x2048 : S_.BroadcastsInDim S1x2048x2048 (![] : Fin 0 → Fin S1x2048x2048.rank)
  bcast_S1x2048x2048_S1x2048x2048x1_0_1_2 : S1x2048x2048.BroadcastsInDim S1x2048x2048x1 (![0, 1, 2] : Fin 3 → Fin S1x2048x2048x1.rank)
  concatenates_S1x2048x2048x1_S1x2048x2048x1_S1x2048x2048x1_S1x2048x2048x3_d3 : Shape.Concatenates [S1x2048x2048x1, S1x2048x2048x1, S1x2048x2048x1] S1x2048x2048x3 3
  bcast_S1x2048x2048_S1x1x2048x2048_1_2_3 : S1x2048x2048.BroadcastsInDim S1x1x2048x2048 (![1, 2, 3] : Fin 3 → Fin S1x1x2048x2048.rank)
  bcast_S_S1x1x2048x2048 : S_.BroadcastsInDim S1x1x2048x2048 (![] : Fin 0 → Fin S1x1x2048x2048.rank)
  bcast_S1x1x2048x2048_S3x1x2048x2048_0_1_2_3 : S1x1x2048x2048.BroadcastsInDim S3x1x2048x2048 (![0, 1, 2, 3] : Fin 4 → Fin S3x1x2048x2048.rank)
  transposes_S3x1x2048x2048_S1x3x2048x2048_1_0_2_3 : S3x1x2048x2048.Transposes [1, 0, 2, 3] S1x3x2048x2048
  bcast_S3x33x33x33_S1x3x33x33x33_1_2_3_4 : S3x33x33x33.BroadcastsInDim S1x3x33x33x33 (![1, 2, 3, 4] : Fin 4 → Fin S1x3x33x33x33.rank)
  gather_S3x33x33x33_S1x2048x2048x3_S3x1x2048x2048_0_123_n_n_123_3_3111_wf : GatherDims.WF S3x33x33x33 S1x2048x2048x3 S3x1x2048x2048 [0] [1, 2, 3] [] [1, 2, 3] [] 3 ![3, 1, 1, 1]

variable [Facts₀]

def gather_S3x33x33x33_S1x2048x2048x3_S3x1x2048x2048_0_123_n_n_123_3_3111 : GatherDims S3x33x33x33 S1x2048x2048x3 S3x1x2048x2048 where
  offsetDims := [0]
  collapsedSliceDims := [1, 2, 3]
  operandBatchingDims := []
  startIndicesBatchingDims := []
  startIndexMap := [1, 2, 3]
  indexVectorDim := 3
  sliceSizes := ![3, 1, 1, 1]
  wf := gather_S3x33x33x33_S1x2048x2048x3_S3x1x2048x2048_0_123_n_n_123_3_3111_wf

class Facts : Prop extends Facts₀ where

variable [Facts]
-- ==== Proof.KernelSpec.lean ====
/-
  What one grid point of the kernel computes, as a function of its two input blocks.

  A grid point holds the table block `x0` (1089 rows `k = 33·z + y`, 99 columns `33·c + x`) and the image block
  `x1` (three rows — the pixel's x, y and z coordinates in that order — by 2048 pixels).  Each coordinate is scaled
  by 32 and clipped to [0, 32]; along each table axis the weight of node `i` is the hat `max 0 (1 − |i − coordinate|)`;
  the output at channel `c` and pixel `p` is the sum over the x nodes of the x weight times the contraction, over the
  combined (z, y) axis, of the product of the z and y weights with the table.
-/
import proofs.«105660_j3358664425833_2_alg».proof.Proof.Gen.KernelIdeal.Frame
import Idealize.ShloMosaic.Lib.ValueIdx

noncomputable section

namespace Cert.KernelIdeal.Pay

open Idealize.ShloMosaic Idealize.ShloMosaic.ValueIdx Idealize.ShloMosaic.TcCoe
open Cert.KernelIdeal Cert.KernelIdeal.Gen

/-! ## The node numbers of the combined axis, as words -/

/-- The z node of lane `k` of the combined axis, as the body computes it: the quotient of the lane number by 33,
    rounded toward minus infinity (the truncated quotient, less one where the signs differ and the remainder is not
    zero). -/
def zW : IVec S1x1089 32 :=
  select (andi (cmpi .ne k0_pay9 (broadcast S1x1089 (Scalar.subi (Scalar.extui (Scalar.cmpi .sgt 33#32 0#32)) (Scalar.extui (Scalar.cmpi .slt 33#32 0#32)))))
               (cmpi .ne (remsi (iota .tc S1x1089 32 [1] iota_S1x1089_d1_w32) (broadcast S1x1089 33#32)) (broadcast S1x1089 0#32)))
         (subi k0_pay8 (broadcast S1x1089 1#32)) k0_pay8

/-- The y node of lane `k`: the lane number less 33 times its z node. -/
def yW : IVec S1x1089 32 := subi (iota .tc S1x1089 32 [1] iota_S1x1089_d1_w32) (muli zW (broadcast S1x1089 33#32))

/-- Lane `k`'s z node is `k / 33` (no lane number is negative, so the correction never fires). -/
theorem zW_apply : ∀ k : Fin 1089, zW (ix2 (0 : Fin 1) k) = BitVec.ofNat 32 (k.val / 33) := by decide +kernel

/-- Lane `k`'s y node is `k % 33`. -/
theorem yW_apply : ∀ k : Fin 1089, yW (ix2 (0 : Fin 1) k) = BitVec.ofNat 32 (k.val % 33) := by decide +kernel

/-! ## The block function -/

/-- A coordinate: the input scaled by 32 and clipped to [0, 32] (the literals are 32.0 and 0.0). -/
def kc (v : EReal) : EReal :=
  min (Ideal.ofBits .f32 0x42000000#32) (max (Ideal.ofBits .f32 0x00000000#32) (v * Ideal.ofBits .f32 0x42000000#32))

/-- The hat weight of node `i` at coordinate `q`: `max 0 (1 − |i − q|)`, the absolute value spelt `max t (−t)`
    (the literals are 0.0 and 1.0). -/
def hatE (i : ℝ) (q : EReal) : EReal :=
  max (Ideal.ofBits .f32 0x00000000#32) (Ideal.ofBits .f32 0x3F800000#32 - max (((i : ℝ) : EReal) - q) (-(((i : ℝ) : EReal) - q)))

theorem col_lt (c : Fin 3) (xi : Fin 33) : 33 * c.val + xi.val < 99 := by have := c.isLt; have := xi.isLt; omega

/-- What a grid point leaves in its output block, from its table block `x0` and its image block `x1`: at channel
    `y 0` and pixel `y 1`. -/
def Gblk (x0 : Vec Ideal S1089x99 .bf16) (x1 : Vec Ideal S3x2048 .f32) : Vec Ideal S3x2048 .f32 := fun y =>
  ∑ xi : Fin 33,
    (∑ k : Fin 1089,
      (hatE ((k.val / 33 : ℕ) : ℝ) (kc (x1 (ix2 (2 : Fin 3) (y 1)))) * hatE ((k.val % 33 : ℕ) : ℝ) (kc (x1 (ix2 (1 : Fin 3) (y 1)))))
        * x0 (ix2 k ⟨33 * (y 0).val + xi.val, col_lt (y 0) xi⟩))
      * hatE ((xi.val : ℕ) : ℝ) (kc (x1 (ix2 (0 : Fin 3) (y 1))))

end Cert.KernelIdeal.Pay

end
-- ==== Proof.KernelPay.lean ====
/-
  What one grid point of the kernel leaves in its output block, read element by element.

  The body stores three rows (channels 0, 1, 2) of a [3, 2048] block.  Row c at pixel p is the sum, over the 33 x nodes,
  of columns 33·c … 33·c + 32 of ONE contraction (the product of the z and y hat weights, summed against the table over
  the combined (z, y) axis) times the x hat weights.  Each operand is read at an index: the clipped coordinates, the
  node numbers k / 33 and k % 33 of the combined axis, the hat weights, the contraction into a zero accumulator, the
  column slice and the lane sum.  Put together, the three rows are the block function of the specification.
-/
import proofs.«105660_j3358664425833_2_alg».proof.Proof.KernelSpec
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.ShloMosaic.TcCoe
open Cert.KernelIdeal Cert.KernelIdeal.Gen

/-- A clipped coordinate column: the row of inputs, scaled by 32 and clipped to [0, 32], stood up as a column. -/
theorem pay5_apply (v : Vec Ideal S1x2048 .f32) (p : Fin 2048) (u : Fin 1) :
    k0_pay5 (F := Ideal) v (ix2 p u) = kc (v (ix2 (0 : Fin 1) p)) := by
  unfold k0_pay5
  refine (shapeCast_apply _ _ (ix2 p u) (ix1 p) ?_).trans ?_
  · rw [Shape.rowMajor_val_one, Shape.rowMajor_val_two]
    show p.val = p.val * 1 + u.val
    have := u.isLt; omega
  · show min _ (max _ (shapeCast S2048 v shapeCasts_S1x2048_S2048 (ix1 p) * _)) = _
    rw [shapeCast_1a_a_apply]
    rfl

theorem pay6_apply (v : Vec Ideal S1x2048 .f32) (p : Fin 2048) (u : Fin 1) :
    k0_pay6 (F := Ideal) v (ix2 p u) = kc (v (ix2 (0 : Fin 1) p)) := by
  unfold k0_pay6
  refine (shapeCast_apply _ _ (ix2 p u) (ix1 p) ?_).trans ?_
  · rw [Shape.rowMajor_val_one, Shape.rowMajor_val_two]
    show p.val = p.val * 1 + u.val
    have := u.isLt; omega
  · show min _ (max _ (shapeCast S2048 v shapeCasts_S1x2048_S2048 (ix1 p) * _)) = _
    rw [shapeCast_1a_a_apply]
    rfl

theorem pay7_apply (v : Vec Ideal S1x2048 .f32) (p : Fin 2048) (u : Fin 1) :
    k0_pay7 (F := Ideal) v (ix2 p u) = kc (v (ix2 (0 : Fin 1) p)) := by
  unfold k0_pay7
  refine (shapeCast_apply _ _ (ix2 p u) (ix1 p) ?_).trans ?_
  · rw [Shape.rowMajor_val_one, Shape.rowMajor_val_two]
    show p.val = p.val * 1 + u.val
    have := u.isLt; omega
  · show min _ (max _ (shapeCast S2048 v shapeCasts_S1x2048_S2048 (ix1 p) * _)) = _
    rw [shapeCast_1a_a_apply]
    rfl

/-- The table block passes through a cast to its own shape unchanged. -/
theorem pay12_eq (v : Vec Ideal S1089x99 .bf16) : k0_pay12 (F := Ideal) v = v := by
  unfold k0_pay12
  exact shapeCast_self _ _

/-- A column broadcast over many columns reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A small natural number, as a 32-bit word read signed and converted, is that number. -/
theorem sitofp_ofNat (n : ℕ) (hn : n < 2 ^ 31) :
    FloatOps.sitofp (F := Ideal) .f32 (BitVec.ofNat 32 n) = (((n : ℕ) : ℝ) : EReal) := by
  show (((BitVec.ofNat 32 n).toInt : ℝ) : EReal) = _
  have h : (BitVec.ofNat 32 n).toInt = (n : ℤ) := by
    rw [BitVec.toInt_eq_toNat_cond, BitVec.toNat_ofNat]
    have h1 : n % 2 ^ 32 = n := Nat.mod_eq_of_lt (by omega)
    rw [h1]
    split <;> omega
  rw [h, Int.cast_natCast]

/-- The x weights: at pixel p and node xi, the hat of node xi at the pixel's x coordinate. -/
theorem pay11_apply (v12 : FVec Ideal S2048x1 .f32) (p : Fin 2048) (xi : Fin 33) :
    k0_pay11 (F := Ideal) v12 (ix2 p xi) = hatE ((xi.val : ℕ) : ℝ) (v12 (ix2 p (0 : Fin 1))) := by
  have hA : broadcastTo S2048x33 (sitofp (F := Ideal) .f32 (iota .tc S1x33 32 [1] iota_S1x33_d1_w32))
      broadcasts_S1x33_S2048x33 (ix2 p xi) = (((xi.val : ℕ) : ℝ) : EReal) := by
    rw [broadcastTo_1b_ab_apply]
    show FloatOps.sitofp .f32 (iota .tc S1x33 32 [1] iota_S1x33_d1_w32 (ix2 (0 : Fin 1) xi)) = _
    rw [iota_single_apply]
    exact sitofp_ofNat xi.val (by have := xi.isLt; omega)
  have hB : broadcastTo S2048x33 v12 broadcasts_S2048x1_S2048x33 (ix2 p xi) = v12 (ix2 p (0 : Fin 1)) :=
    broadcastTo_a1_ab_apply _ _ _ _
  unfold k0_pay11
  show max _ (_ - max
      (broadcastTo S2048x33 (sitofp (F := Ideal) .f32 (iota .tc S1x33 32 [1] iota_S1x33_d1_w32))
          broadcasts_S1x33_S2048x33 (ix2 p xi)
        - broadcastTo S2048x33 v12 broadcasts_S2048x1_S2048x33 (ix2 p xi))
      (-(broadcastTo S2048x33 (sitofp (F := Ideal) .f32 (iota .tc S1x33 32 [1] iota_S1x33_d1_w32))
          broadcasts_S1x33_S2048x33 (ix2 p xi)
        - broadcastTo S2048x33 v12 broadcasts_S2048x1_S2048x33 (ix2 p xi)))) = _
  rw [hA, hB]
  rfl

/-- The z and y weights: at pixel p and lane k of the combined axis, the product of the hat of node k / 33 at the
    pixel's z coordinate and the hat of node k % 33 at its y coordinate. -/
theorem pay10_apply (v19 v26 : FVec Ideal S2048x1 .f32) (p : Fin 2048) (k : Fin 1089) :
    k0_pay10 (F := Ideal) v19 v26 (iota .tc S1x1089 32 [1] iota_S1x1089_d1_w32) 33#32 k0_pay8 k0_pay9
        (Scalar.extui (Scalar.cmpi .sgt 33#32 0#32)) 0#32 (ix2 p k)
      = hatE ((k.val / 33 : ℕ) : ℝ) (v26 (ix2 p (0 : Fin 1))) * hatE ((k.val % 33 : ℕ) : ℝ) (v19 (ix2 p (0 : Fin 1))) := by
  have hZ : broadcastTo S2048x1089 (sitofp (F := Ideal) .f32 zW) broadcasts_S1x1089_S2048x1089 (ix2 p k)
      = (((k.val / 33 : ℕ) : ℝ) : EReal) := by
    rw [broadcastTo_1b_ab_apply]
    show FloatOps.sitofp .f32 (zW (ix2 (0 : Fin 1) k)) = _
    rw [zW_apply]
    exact sitofp_ofNat _ (by have := k.isLt; omega)
  have hY : broadcastTo S2048x1089 (sitofp (F := Ideal) .f32 yW) broadcasts_S1x1089_S2048x1089 (ix2 p k)
      = (((k.val % 33 : ℕ) : ℝ) : EReal) := by
    rw [broadcastTo_1b_ab_apply]
    show FloatOps.sitofp .f32 (yW (ix2 (0 : Fin 1) k)) = _
    rw [yW_apply]
    exact sitofp_ofNat _ (by have := k.isLt; omega)
  have h26 : broadcastTo S2048x1089 v26 broadcasts_S2048x1_S2048x1089 (ix2 p k) = v26 (ix2 p (0 : Fin 1)) :=
    broadcastTo_a1_ab_apply _ _ _ _
  have h19 : broadcastTo S2048x1089 v19 broadcasts_S2048x1_S2048x1089 (ix2 p k) = v19 (ix2 p (0 : Fin 1)) :=
    broadcastTo_a1_ab_apply _ _ _ _
  unfold k0_pay10
  show max _ (_ - max
        (broadcastTo S2048x1089 (sitofp (F := Ideal) .f32 zW) broadcasts_S1x1089_S2048x1089 (ix2 p k)
          - broadcastTo S2048x1089 v26 broadcasts_S2048x1_S2048x1089 (ix2 p k))
        (-(broadcastTo S2048x1089 (sitofp (F := Ideal) .f32 zW) broadcasts_S1x1089_S2048x1089 (ix2 p k)
          - broadcastTo S2048x1089 v26 broadcasts_S2048x1_S2048x1089 (ix2 p k))))
      * max _ (_ - max
        (broadcastTo S2048x1089 (sitofp (F := Ideal) .f32 yW) broadcasts_S1x1089_S2048x1089 (ix2 p k)
          - broadcastTo S2048x1089 v19 broadcasts_S2048x1_S2048x1089 (ix2 p k))
        (-(broadcastTo S2048x1089 (sitofp (F := Ideal) .f32 yW) broadcasts_S1x1089_S2048x1089 (ix2 p k)
          - broadcastTo S2048x1089 v19 broadcasts_S2048x1_S2048x1089 (ix2 p k)))) = _
  rw [hZ, hY, h26, h19]
  rfl

/-- The contraction into a zero accumulator: at pixel p and table column j, the sum over the combined (z, y) lanes
    of the weight at (p, k) times the table entry at (k, j). -/
theorem pay1_apply (v74 : FVec Ideal S2048x1089 .bf16) (v86 : FVec Ideal S1089x99 .bf16) (p : Fin 2048) (j : Fin 99) :
    k0_pay1 (F := Ideal) v74 v86 (constant (F := Ideal) S2048x99 .f32 0x00000000#32) (ix2 p j)
      = ∑ k : Fin 1089, v74 (ix2 p k) * v86 (ix2 k j) := by
  unfold k0_pay1
  refine (Ideal.matmul_constant_zero_apply dot_S2048x1089_S1089x99_S2048x99_1_0_0_1_n_n none v74 v86 (ix2 p j)).trans ?_
  rw [← Equiv.sum_comp (contrEquiv1 dot_S2048x1089_S1089x99_S2048x99_1_0_0_1_n_n 1089 rfl rfl).symm]
  refine Finset.sum_congr rfl fun k _ => ?_
  have hl : dot_S2048x1089_S1089x99_S2048x99_1_0_0_1_n_n.lhsIdx (ix2 p j)
      ((contrEquiv1 dot_S2048x1089_S1089x99_S2048x99_1_0_0_1_n_n 1089 rfl rfl).symm k) = ix2 p k := by
    funext a; apply Fin.ext
    match a with
    | ⟨0, _⟩ => rfl
    | ⟨1, _⟩ =>
      exact (DotDims.lhsIdx_val_of_single dot_S2048x1089_S1089x99_S2048x99_1_0_0_1_n_n (cl := (1 : Fin 2)) rfl _ _).trans
        (contrEquiv1_symm_val dot_S2048x1089_S1089x99_S2048x99_1_0_0_1_n_n 1089 rfl rfl k)
  have hr : dot_S2048x1089_S1089x99_S2048x99_1_0_0_1_n_n.rhsIdx (ix2 p j)
      ((contrEquiv1 dot_S2048x1089_S1089x99_S2048x99_1_0_0_1_n_n 1089 rfl rfl).symm k) = ix2 k j := by
    funext a; apply Fin.ext
    match a with
    | ⟨0, _⟩ =>
      exact (DotDims.rhsIdx_val_of_single dot_S2048x1089_S1089x99_S2048x99_1_0_0_1_n_n (cr := (0 : Fin 2)) rfl _ _).trans
        (contrEquiv1_symm_val dot_S2048x1089_S1089x99_S2048x99_1_0_0_1_n_n 1089 rfl rfl k)
    | ⟨1, _⟩ => rfl
  rw [hl, hr]

/-- Row 0 of the output block: at pixel p, the sum over the x nodes of table columns 0 … 32 of the
    contraction, each times its x weight. -/
theorem pay2_apply (v74 : FVec Ideal S2048x1089 .bf16) (v84 : FVec Ideal S2048x33 .f32) (v86 : FVec Ideal S1089x99 .bf16)
    (u : Fin 1) (p : Fin 2048) :
    k0_pay2 (F := Ideal) v74 v84 v86 (constant (F := Ideal) S2048x99 .f32 0x00000000#32) (ix2 u p)
      = ∑ xi : Fin 33,
          k0_pay1 (F := Ideal) v74 v86 (constant (F := Ideal) S2048x99 .f32 0x00000000#32)
            (ix2 p ⟨33 * (0 : Fin 3).val + xi.val, col_lt 0 xi⟩) * v84 (ix2 p xi) := by
  unfold k0_pay2
  refine (shapeCast_a_1a_apply _ _ u p).trans ?_
  refine (Ideal.multiReduction_add_single _ _ reduces_S2048x33_S2048 _ _ (ix1 p)).trans ?_
  refine Finset.sum_congr rfl fun xi _ => ?_
  have hlift : reduces_S2048x33_S2048.lift (ix1 p) xi = ix2 p xi := by
    funext a; apply Fin.ext
    match a with
    | ⟨0, _⟩ => rfl
    | ⟨1, _⟩ => rfl
  rw [hlift]
  exact congrArg (fun t => t * v84 (ix2 p xi))
    (slice2_axis1_apply 0 (k0_pay1 (F := Ideal) v74 v86 (constant (F := Ideal) S2048x99 .f32 0x00000000#32))
      slices_S2048x99_o0_0_S2048x33 p xi ⟨33 * (0 : Fin 3).val + xi.val, col_lt 0 xi⟩
      (by show 33 * 0 + xi.val = 0 + xi.val; omega))

/-- Row 1 of the output block: at pixel p, the sum over the x nodes of table columns 33 … 65 of the
    contraction, each times its x weight. -/
theorem pay3_apply (v74 : FVec Ideal S2048x1089 .bf16) (v84 : FVec Ideal S2048x33 .f32) (v86 : FVec Ideal S1089x99 .bf16)
    (u : Fin 1) (p : Fin 2048) :
    k0_pay3 (F := Ideal) v74 v84 v86 (constant (F := Ideal) S2048x99 .f32 0x00000000#32) (ix2 u p)
      = ∑ xi : Fin 33,
          k0_pay1 (F := Ideal) v74 v86 (constant (F := Ideal) S2048x99 .f32 0x00000000#32)
            (ix2 p ⟨33 * (1 : Fin 3).val + xi.val, col_lt 1 xi⟩) * v84 (ix2 p xi) := by
  unfold k0_pay3
  refine (shapeCast_a_1a_apply _ _ u p).trans ?_
  refine (Ideal.multiReduction_add_single _ _ reduces_S2048x33_S2048 _ _ (ix1 p)).trans ?_
  refine Finset.sum_congr rfl fun xi _ => ?_
  have hlift : reduces_S2048x33_S2048.lift (ix1 p) xi = ix2 p xi := by
    funext a; apply Fin.ext
    match a with
    | ⟨0, _⟩ => rfl
    | ⟨1, _⟩ => rfl
  rw [hlift]
  exact congrArg (fun t => t * v84 (ix2 p xi))
    (slice2_axis1_apply 33 (k0_pay1 (F := Ideal) v74 v86 (constant (F := Ideal) S2048x99 .f32 0x00000000#32))
      slices_S2048x99_o0_33_S2048x33 p xi ⟨33 * (1 : Fin 3).val + xi.val, col_lt 1 xi⟩
      (by show 33 * 1 + xi.val = 33 + xi.val; omega))

/-- Row 2 of the output block: at pixel p, the sum over the x nodes of table columns 66 … 98 of the
    contraction, each times its x weight. -/
theorem pay4_apply (v74 : FVec Ideal S2048x1089 .bf16) (v84 : FVec Ideal S2048x33 .f32) (v86 : FVec Ideal S1089x99 .bf16)
    (u : Fin 1) (p : Fin 2048) :
    k0_pay4 (F := Ideal) v74 v84 v86 (constant (F := Ideal) S2048x99 .f32 0x00000000#32) (ix2 u p)
      = ∑ xi : Fin 33,
          k0_pay1 (F := Ideal) v74 v86 (constant (F := Ideal) S2048x99 .f32 0x00000000#32)
            (ix2 p ⟨33 * (2 : Fin 3).val + xi.val, col_lt 2 xi⟩) * v84 (ix2 p xi) := by
  unfold k0_pay4
  refine (shapeCast_a_1a_apply _ _ u p).trans ?_
  refine (Ideal.multiReduction_add_single _ _ reduces_S2048x33_S2048 _ _ (ix1 p)).trans ?_
  refine Finset.sum_congr rfl fun xi _ => ?_
  have hlift : reduces_S2048x33_S2048.lift (ix1 p) xi = ix2 p xi := by
    funext a; apply Fin.ext
    match a with
    | ⟨0, _⟩ => rfl
    | ⟨1, _⟩ => rfl
  rw [hlift]
  exact congrArg (fun t => t * v84 (ix2 p xi))
    (slice2_axis1_apply 66 (k0_pay1 (F := Ideal) v74 v86 (constant (F := Ideal) S2048x99 .f32 0x00000000#32))
      slices_S2048x99_o0_66_S2048x33 p xi ⟨33 * (2 : Fin 3).val + xi.val, col_lt 2 xi⟩
      (by show 33 * 2 + xi.val = 66 + xi.val; omega))

theorem zero_offsets : (![0, 0] : Fin 2 → Nat) = fun _ => 0 := funext fun a => by fin_cases a <;> rfl

/-- The table block is loaded whole. -/
theorem ld_r0_3 (x0 : Vec Ideal S1089x99 .bf16) : View.ld x0 r0_3 = x0 :=
  View.ld_unit_zero zero_offsets _ x0

/-- Row 0 of the [3, 2048] block, entered at (u, p), is the block's entry (0, p). -/
theorem r0_0_idx (u : Fin 1) (p : Fin 2048) : r0_0.idx (ix2 u p) = ix2 (0 : Fin 3) p := by
  funext a; apply Fin.ext
  match a with
  | ⟨0, _⟩ =>
    show 0 + 1 * u.val = 0
    have := u.isLt; omega
  | ⟨1, _⟩ =>
    show 0 + 1 * p.val = p.val
    omega

theorem ld_r0_0 (x1 : Vec Ideal S3x2048 .f32) (u : Fin 1) (p : Fin 2048) :
    View.ld x1 r0_0 (ix2 u p) = x1 (ix2 (0 : Fin 3) p) :=
  congrArg x1 (r0_0_idx u p)

/-- Row 1 of the [3, 2048] block, entered at (u, p), is the block's entry (1, p). -/
theorem r0_1_idx (u : Fin 1) (p : Fin 2048) : r0_1.idx (ix2 u p) = ix2 (1 : Fin 3) p := by
  funext a; apply Fin.ext
  match a with
  | ⟨0, _⟩ =>
    show 1 + 1 * u.val = 1
    have := u.isLt; omega
  | ⟨1, _⟩ =>
    show 0 + 1 * p.val = p.val
    omega

theorem ld_r0_1 (x1 : Vec Ideal S3x2048 .f32) (u : Fin 1) (p : Fin 2048) :
    View.ld x1 r0_1 (ix2 u p) = x1 (ix2 (1 : Fin 3) p) :=
  congrArg x1 (r0_1_idx u p)

/-- Row 2 of the [3, 2048] block, entered at (u, p), is the block's entry (2, p). -/
theorem r0_2_idx (u : Fin 1) (p : Fin 2048) : r0_2.idx (ix2 u p) = ix2 (2 : Fin 3) p := by
  funext a; apply Fin.ext
  match a with
  | ⟨0, _⟩ =>
    show 2 + 1 * u.val = 2
    have := u.isLt; omega
  | ⟨1, _⟩ =>
    show 0 + 1 * p.val = p.val
    omega

theorem ld_r0_2 (x1 : Vec Ideal S3x2048 .f32) (u : Fin 1) (p : Fin 2048) :
    View.ld x1 r0_2 (ix2 u p) = x1 (ix2 (2 : Fin 3) p) :=
  congrArg x1 (r0_2_idx u p)

/-- The three row stores share their operands; with those operands read at an index, row c at pixel p is the block
    function there. -/
theorem rows_eq_Gblk (x0 : Vec Ideal S1089x99 .bf16) (x1 : Vec Ideal S3x2048 .f32) (c : Fin 3) (p : Fin 2048) :
    ∑ xi : Fin 33,
        k0_pay1 (F := Ideal) (k0_pay10 (F := Ideal) (k0_pay6 (View.ld x1 r0_1)) (k0_pay7 (View.ld x1 r0_2)) (iota .tc S1x1089 32 [1] iota_S1x1089_d1_w32) 33#32 k0_pay8 k0_pay9 (Scalar.extui (Scalar.cmpi .sgt 33#32 0#32)) 0#32) (k0_pay12 (F := Ideal) (View.ld x0 r0_3)) (constant (F := Ideal) S2048x99 .f32 0x00000000#32) (ix2 p ⟨33 * c.val + xi.val, col_lt c xi⟩)
          * (k0_pay11 (F := Ideal) (k0_pay5 (View.ld x1 r0_0))) (ix2 p xi)
      = Gblk x0 x1 (ix2 c p) := by
  unfold Gblk
  refine Finset.sum_congr rfl fun xi _ => ?_
  rw [pay1_apply, pay11_apply, pay5_apply, ld_r0_0]
  refine congrArg (fun t => t * hatE ((xi.val : ℕ) : ℝ) (kc (x1 (ix2 (0 : Fin 3) p)))) ?_
  refine Finset.sum_congr rfl fun k _ => ?_
  rw [pay10_apply, pay6_apply, pay7_apply, ld_r0_1, ld_r0_2, pay12_eq, ld_r0_3]

theorem piece_r0 (x0 : Vec Ideal S1089x99 .bf16) (x1 : Vec Ideal S3x2048 .f32) (x : (⟨2, ![1, 2048]⟩ : Shape).Idx) :
    k0_pay2 (F := Ideal) (k0_pay10 (F := Ideal) (k0_pay6 (View.ld x1 r0_1)) (k0_pay7 (View.ld x1 r0_2)) (iota .tc S1x1089 32 [1] iota_S1x1089_d1_w32) 33#32 k0_pay8 k0_pay9 (Scalar.extui (Scalar.cmpi .sgt 33#32 0#32)) 0#32) (k0_pay11 (F := Ideal) (k0_pay5 (View.ld x1 r0_0))) (k0_pay12 (F := Ideal) (View.ld x0 r0_3)) (constant (F := Ideal) S2048x99 .f32 0x00000000#32) x = Gblk x0 x1 (r0_0.emb x) := by
  obtain ⟨u, p, rfl⟩ : ∃ (u : Fin 1) (p : Fin 2048), x = ix2 u p := ⟨x 0, x 1, eq_ix2 x⟩
  rw [show r0_0.emb (ix2 u p) = ix2 (0 : Fin 3) p from r0_0_idx u p, pay2_apply]
  exact rows_eq_Gblk x0 x1 0 p

theorem piece_r1 (x0 : Vec Ideal S1089x99 .bf16) (x1 : Vec Ideal S3x2048 .f32) (x : (⟨2, ![1, 2048]⟩ : Shape).Idx) :
    k0_pay3 (F := Ideal) (k0_pay10 (F := Ideal) (k0_pay6 (View.ld x1 r0_1)) (k0_pay7 (View.ld x1 r0_2)) (iota .tc S1x1089 32 [1] iota_S1x1089_d1_w32) 33#32 k0_pay8 k0_pay9 (Scalar.extui (Scalar.cmpi .sgt 33#32 0#32)) 0#32) (k0_pay11 (F := Ideal) (k0_pay5 (View.ld x1 r0_0))) (k0_pay12 (F := Ideal) (View.ld x0 r0_3)) (constant (F := Ideal) S2048x99 .f32 0x00000000#32) x = Gblk x0 x1 (r0_1.emb x) := by
  obtain ⟨u, p, rfl⟩ : ∃ (u : Fin 1) (p : Fin 2048), x = ix2 u p := ⟨x 0, x 1, eq_ix2 x⟩
  rw [show r0_1.emb (ix2 u p) = ix2 (1 : Fin 3) p from r0_1_idx u p, pay3_apply]
  exact rows_eq_Gblk x0 x1 1 p

theorem piece_r2 (x0 : Vec Ideal S1089x99 .bf16) (x1 : Vec Ideal S3x2048 .f32) (x : (⟨2, ![1, 2048]⟩ : Shape).Idx) :
    k0_pay4 (F := Ideal) (k0_pay10 (F := Ideal) (k0_pay6 (View.ld x1 r0_1)) (k0_pay7 (View.ld x1 r0_2)) (iota .tc S1x1089 32 [1] iota_S1x1089_d1_w32) 33#32 k0_pay8 k0_pay9 (Scalar.extui (Scalar.cmpi .sgt 33#32 0#32)) 0#32) (k0_pay11 (F := Ideal) (k0_pay5 (View.ld x1 r0_0))) (k0_pay12 (F := Ideal) (View.ld x0 r0_3)) (constant (F := Ideal) S2048x99 .f32 0x00000000#32) x = Gblk x0 x1 (r0_2.emb x) := by
  obtain ⟨u, p, rfl⟩ : ∃ (u : Fin 1) (p : Fin 2048), x = ix2 u p := ⟨x 0, x 1, eq_ix2 x⟩
  rw [show r0_2.emb (ix2 u p) = ix2 (2 : Fin 3) p from r0_2_idx u p, pay4_apply]
  exact rows_eq_Gblk x0 x1 2 p

/-- What the body leaves in the output block is the block function: the three row stores tile the block, and each
    row's payload is the block function along that row. -/
theorem out0_2_eq (x0 : Vec Ideal S1089x99 .bf16) (x1 : Vec Ideal S3x2048 .f32) :
    out0_2 (F := Ideal) x0 x1 = Gblk x0 x1 := by
  funext y
  unfold out0_2
  refine View.canon_apply_of_pieces (Gblk x0 x1) _ ?_ y (cover0_2 _ _ _ y)
  intro pc hpc x
  simp only [List.mem_cons, List.mem_nil_iff, or_false] at hpc
  rcases hpc with rfl | rfl | rfl
  · exact piece_r2 x0 x1 x
  · exact piece_r1 x0 x1 x
  · exact piece_r0 x0 x1 x

end Cert.KernelIdeal.Pay

end
-- ==== Proof.KernelIdx.lean ====
/-
  The printed index maps of the kernel's three windows, over the grid of 2048 points: the table's window stays at
  block (0, 0); the image's and the output's windows are at block (0, t) at point `t` (one point per image row).
-/
import proofs.«105660_j3358664425833_2_alg».proof.Proof.Gen.KernelIdeal.Points

-- one fact at a time: each is decided by evaluation over all 2048 grid points
set_option Elab.async false

noncomputable section

namespace Cert.KernelIdeal.Hand

open Idealize.ShloMosaic Cert.KernelIdeal Cert.KernelIdeal.Gen

theorem idx_win0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem idx_win1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

theorem idx_win2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

end Cert.KernelIdeal.Hand

end
-- ==== Proof.KernelAt.lean ====
/-
  The kernel program's result at one output element, written on the two ARGUMENT arrays: channel `ch`, pixel `(h, w)`
  of the [1, 3, 2048, 2048] result is the hat-weighted sum over the 33 x nodes and the 1089 combined (z, y) nodes of the
  table's entries of that channel, the coordinates those of the pixel's three inputs.
-/
import proofs.«105660_j3358664425833_2_alg».proof.Proof.KernelSpec

noncomputable section

namespace Cert.KernelIdeal.Pay

open Idealize.ShloMosaic Idealize.ShloMosaic.ValueIdx
open Cert.KernelIdeal

theorem kdiv_lt (k : Fin 1089) : k.val / 33 < 33 := by have := k.isLt; omega
theorem kmod_lt (k : Fin 1089) : k.val % 33 < 33 := by omega

/-- The kernel program's result at channel `ch`, pixel `(h, w)`, from the table `A` (indexed channel, z, y, x) and the
    image `B` (indexed batch, input, row, column; input 0 is the x coordinate, 1 the y, 2 the z). -/
def KSpec (A : FVec Ideal S3x33x33x33 .f32) (B : FVec Ideal S1x3x2048x2048 .f32) (ch : Fin 3) (h w : Fin 2048) : EReal :=
  ∑ xi : Fin 33,
    (∑ k : Fin 1089,
      (hatE ((k.val / 33 : ℕ) : ℝ) (kc (B (ix4 (0 : Fin 1) (2 : Fin 3) h w))) * hatE ((k.val % 33 : ℕ) : ℝ) (kc (B (ix4 (0 : Fin 1) (1 : Fin 3) h w))))
        * A (ix4 ch ⟨k.val / 33, kdiv_lt k⟩ ⟨k.val % 33, kmod_lt k⟩ xi))
      * hatE ((xi.val : ℕ) : ℝ) (kc (B (ix4 (0 : Fin 1) (0 : Fin 3) h w)))

end Cert.KernelIdeal.Pay

end
-- ==== Proof.KernelValue.lean ====
/-
  The kernel program's two results, as functions of its two arguments.

  One grid point per image row: point `t` reads the whole regrouped table and the three rows of the regrouped image at
  pixels `2048·t … 2048·t + 2047`, and writes back block `t` of ONE function of those two arrays (`Garr`); the 2048
  blocks tile the [3, 2048·2048] output array, so after the run the array is that function; the line after the region
  regroups it to [1, 3, 2048, 2048], and the other result is the table argument with a leading unit axis.  Read at channel
  `ch` and pixel `(h, w)` the second result is `KSpec`: the hat-weighted sum of the table's entries of that channel.
-/
import proofs.«105660_j3358664425833_2_alg».proof.Proof.KernelPay
import proofs.«105660_j3358664425833_2_alg».proof.Proof.KernelIdx
import proofs.«105660_j3358664425833_2_alg».proof.Proof.KernelAt
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Pay

variable (m : (ℓ : Loc nD τ sig) → Buf (Elt Ideal) ℓ) (ρ : Dev nD → PrngReg)

/-! ## The two arrays the region reads, from the arguments -/

/-- The table as the region finds it: the argument transposed to (z, y, c, x) and regrouped to 1089 rows
    `33·z + y` by 99 columns `33·c + x` (the change of format is the identity on extended reals). -/
def lutK (A : FVec Ideal S3x33x33x33 .f32) : FVec Ideal S1089x99 .bf16 :=
  truncf (F := Ideal) .bf16 (shapeCast S1089x99 (transpose S33x33x3x33 [1, 2, 0, 3] A transposes_S3x33x33x33_S33x33x3x33_1_2_0_3) shapeCasts_S33x33x3x33_S1089x99) bitsLt_bf16_f32

/-- The image as the region finds it: three rows of 2048·2048 pixels, pixel `2048·h + w`. -/
def imgK (B : FVec Ideal S1x3x2048x2048 .f32) : FVec Ideal S3x4194304 .f32 :=
  shapeCast S3x4194304 (shapeCast S3x2048x2048 B shapeCasts_S1x3x2048x2048_S3x2048x2048) shapeCasts_S3x2048x2048_S3x4194304

theorem V_v2 (c : Dev nD) : V m c main_v2 = lutK (m ((c : Thread nD τ).loc main_arg0)) := by
  show StableHlo.after hostOps0 (fun b => m (c, b)) (Proc.devRef .tc main_v2) = _
  after_results
  rfl

theorem V_v4 (c : Dev nD) : V m c main_v4 = imgK (m ((c : Thread nD τ).loc main_arg1)) := by
  show StableHlo.after hostOps0 (fun b => m (c, b)) (Proc.devRef .tc main_v4) = _
  after_results
  rfl

/-- Row `k`, column `j` of the regrouped table is the argument at channel `j / 33`, nodes `(k / 33, k % 33, j % 33)`. -/
theorem lutK_apply (A : FVec Ideal S3x33x33x33 .f32) (k : Fin 1089) (j : Fin 99) :
    lutK A (ix2 k j) = A (ix4 (⟨j.val / 33, by have := j.isLt; omega⟩ : Fin 3) (⟨k.val / 33, by have := k.isLt; omega⟩ : Fin 33)
      (⟨k.val % 33, by omega⟩ : Fin 33) (⟨j.val % 33, by omega⟩ : Fin 33)) := by
  unfold lutK
  refine (truncf_apply (ψ := .bf16) _ bitsLt_bf16_f32 (ix2 k j)).trans ?_
  rw [shapeCast_apply _ shapeCasts_S33x33x3x33_S1089x99 (ix2 k j)
    (ix4 (⟨k.val / 33, by have := k.isLt; omega⟩ : Fin 33) (⟨k.val % 33, by omega⟩ : Fin 33) (⟨j.val / 33, by have := j.isLt; omega⟩ : Fin 3) (⟨j.val % 33, by omega⟩ : Fin 33))
    (by rw [Shape.rowMajor_val_four, Shape.rowMajor_val_two]
        show ((k.val / 33 * 33 + k.val % 33) * 3 + j.val / 33) * 33 + j.val % 33 = k.val * 99 + j.val
        omega)]
  exact transpose_apply _ _ _ _ _ (fun b => by
    match b with
    | ⟨0, _⟩ => rfl
    | ⟨1, _⟩ => rfl
    | ⟨2, _⟩ => rfl
    | ⟨3, _⟩ => rfl)

/-- Row `ch`, pixel `n` of the regrouped image is the argument at `(0, ch, n / 2048, n % 2048)`. -/
theorem imgK_apply (B : FVec Ideal S1x3x2048x2048 .f32) (ch : Fin 3) (n : Fin 4194304) :
    imgK B (ix2 ch n) = B (ix4 (0 : Fin 1) ch (⟨n.val / 2048, by have := n.isLt; omega⟩ : Fin 2048) (⟨n.val % 2048, by omega⟩ : Fin 2048)) := by
  unfold imgK
  rw [shapeCast_apply _ shapeCasts_S3x2048x2048_S3x4194304 (ix2 ch n)
    (ix3 ch (⟨n.val / 2048, by have := n.isLt; omega⟩ : Fin 2048) (⟨n.val % 2048, by omega⟩ : Fin 2048))
    (by rw [Shape.rowMajor_val_three, Shape.rowMajor_val_two]
        show (ch.val * 2048 + n.val / 2048) * 2048 + n.val % 2048 = ch.val * 4194304 + n.val
        omega)]
  exact shapeCast_apply _ shapeCasts_S1x3x2048x2048_S3x2048x2048 _ _
    (by rw [Shape.rowMajor_val_four, Shape.rowMajor_val_three]
        show ((0 * 3 + ch.val) * 2048 + n.val / 2048) * 2048 + n.val % 2048 = (ch.val * 2048 + n.val / 2048) * 2048 + n.val % 2048
        omega)

/-! ## The whole output array -/

/-- The output array, [3, 2048·2048], as one function of the table array `A2` and the image array `A4`: at channel
    `i 0` and pixel `i 1` the block function's sum, read off the whole arrays. -/
def Garr (A2 : FVec Ideal S1089x99 .bf16) (A4 : FVec Ideal S3x4194304 .f32) : FVec Ideal S3x4194304 .f32 := fun i =>
  ∑ xi : Fin 33,
    (∑ k : Fin 1089,
      (hatE ((k.val / 33 : ℕ) : ℝ) (kc (A4 (ix2 (2 : Fin 3) (i 1)))) * hatE ((k.val % 33 : ℕ) : ℝ) (kc (A4 (ix2 (1 : Fin 3) (i 1)))))
        * A2 (ix2 k ⟨33 * (i 0).val + xi.val, col_lt (i 0) xi⟩))
      * hatE ((xi.val : ℕ) : ℝ) (kc (A4 (ix2 (0 : Fin 3) (i 1))))

/-- A block's element is the array's: if the table block is the table and the image block's pixel `p` is the image
    array's pixel `n`, the block function at `(c, p)` is the array function at `(c, n)`. -/
theorem Gblk_eq_Garr (x0 A2 : FVec Ideal S1089x99 .bf16) (x1 : Vec Ideal S3x2048 .f32) (A4 : FVec Ideal S3x4194304 .f32)
    (c : Fin 3) (p : Fin 2048) (n : Fin 4194304) (hx0 : x0 = A2) (hx1 : ∀ j : Fin 3, x1 (ix2 j p) = A4 (ix2 j n)) :
    Gblk x0 x1 (ix2 c p) = Garr A2 A4 (ix2 c n) := by
  subst hx0
  show (∑ xi : Fin 33, (∑ k : Fin 1089,
        (hatE ((k.val / 33 : ℕ) : ℝ) (kc (x1 (ix2 (2 : Fin 3) p))) * hatE ((k.val % 33 : ℕ) : ℝ) (kc (x1 (ix2 (1 : Fin 3) p))))
          * x0 (ix2 k ⟨33 * c.val + xi.val, col_lt c xi⟩)) * hatE ((xi.val : ℕ) : ℝ) (kc (x1 (ix2 (0 : Fin 3) p))))
      = ∑ xi : Fin 33, (∑ k : Fin 1089,
        (hatE ((k.val / 33 : ℕ) : ℝ) (kc (A4 (ix2 (2 : Fin 3) n))) * hatE ((k.val % 33 : ℕ) : ℝ) (kc (A4 (ix2 (1 : Fin 3) n))))
          * x0 (ix2 k ⟨33 * c.val + xi.val, col_lt c xi⟩)) * hatE ((xi.val : ℕ) : ℝ) (kc (A4 (ix2 (0 : Fin 3) n)))
  rw [hx1 2, hx1 1, hx1 0]

/-- Pixel `b` of point `t`'s block is pixel `2048·t + b` of the array, inside its 2048·2048 pixels. -/
theorem pix_lt (t : Fin cfg0.N) (b : Fin 2048) : t.val * 2048 + b.val < 4194304 := by
  have h : t.val < 2048 := (show t.val < grid0.N from t.isLt).trans_eq N_0
  have := b.isLt; omega

/-- The table's window is the whole table at every point. -/
theorem blk0_read (X : FVec Ideal S1089x99 .bf16) (t : Fin cfg0.N) :
    ((cfg0.win 0).blk t).view.read (Elt Ideal) X = X := by
  obtain ⟨e0, e1⟩ := idx_win0 t
  funext z
  show X (((cfg0.win 0).blk t).view.emb z) = X z
  refine congrArg X ?_
  funext d; apply Fin.ext
  match d with
  | ⟨0, _⟩ => show win0_0.index t (0 : Fin 2) * 1089 + 1 * (z 0).val = (z 0).val; omega
  | ⟨1, _⟩ => show win0_0.index t (1 : Fin 2) * 99 + 1 * (z 1).val = (z 1).val; omega

/-- Row `j`, pixel `b` of the image's block at point `t` is row `j`, pixel `2048·t + b` of the image array. -/
theorem blk1_read (X : FVec Ideal S3x4194304 .f32) (t : Fin cfg0.N) (j : Fin 3) (b : Fin 2048) :
    ((cfg0.win 1).blk t).view.read (Elt Ideal) X (ix2 j b) = X (ix2 j (⟨t.val * 2048 + b.val, pix_lt t b⟩ : Fin 4194304)) := by
  obtain ⟨e2, e3⟩ := idx_win1 t
  show X (((cfg0.win 1).blk t).view.emb (ix2 j b)) = _
  refine congrArg X ?_
  funext d; apply Fin.ext
  match d with
  | ⟨0, _⟩ => show win0_1.index t (0 : Fin 2) * 3 + 1 * j.val = j.val; omega
  | ⟨1, _⟩ => show win0_1.index t (1 : Fin 2) * 2048 + 1 * b.val = t.val * 2048 + b.val; omega
/-- What point `t` writes back is block `t` of `Garr` of the two arrays as the region finds them: its table block is
    the whole table, its image block the three rows at pixels `2048·t … 2048·t + 2047`. -/
theorem flushed_eq (c : Dev nD) (t : Fin cfg0.N) :
    (dats m 0 c).flushed 2 t = ((cfg0.win 2).blk t).view.read (Elt Ideal) (Garr (V m c main_v2) (V m c main_v4)) := by
  show (cfg0.win 2).cut (grid0.coords t) ((dats m 0 c).after 2 t) = _
  rw [after0_2, out0_2_eq]
  obtain ⟨e0, e1⟩ := idx_win0 t
  obtain ⟨e2, e3⟩ := idx_win1 t
  obtain ⟨e4, e5⟩ := idx_win2 t
  funext y
  show Gblk (iblk m c 0 t) (iblk m c 1 t) y = Garr (V m c main_v2) (V m c main_v4) (((cfg0.win 2).blk t).view.emb y)
  obtain ⟨a, b, rfl⟩ : ∃ (a : Fin 3) (b : Fin 2048), y = ix2 a b := ⟨y 0, y 1, eq_ix2 y⟩
  have hemb : ((cfg0.win 2).blk t).view.emb (ix2 a b) = ix2 a (⟨t.val * 2048 + b.val, pix_lt t b⟩ : Fin 4194304) := by
    funext d; apply Fin.ext
    match d with
    | ⟨0, _⟩ => show win0_2.index t (0 : Fin 2) * 3 + 1 * a.val = a.val; omega
    | ⟨1, _⟩ => show win0_2.index t (1 : Fin 2) * 2048 + 1 * b.val = t.val * 2048 + b.val; omega
  rw [hemb]
  exact Gblk_eq_Garr (iblk m c 0 t) (V m c main_v2) (iblk m c 1 t) (V m c main_v4) a b (⟨t.val * 2048 + b.val, pix_lt t b⟩ : Fin 4194304)
    (blk0_read (V m c main_v2) t) (fun j => blk1_read (V m c main_v4) t j b)

/-- An index of the output array is in point `t`'s block iff each coordinate is in the block's range on its axis. -/
theorem mem_blk (t : Fin cfg0.N) (i : S3x4194304.Idx) :
    i ∈ ((cfg0.win 2).blk t).view.set ↔ ∀ a : Fin 2, win0_2.index t a * S3x2048.size a ≤ (i a).val ∧ (i a).val < win0_2.index t a * S3x2048.size a + S3x2048.size a := by
  show i ∈ ((View.whole main_v5).slice (win0_2.rect t)).set ↔ _
  rw [View.set_slice_whole, Rect.mem_set_unit]
  exact Iff.rfl

/-- The output array after the run is `Garr` of the two arrays: pixel `n` lies in the block of point `n / 2048`. -/
theorem final (c : Dev nD) : (dats m 0 c).arrAt 2 cfg0.N = Garr (V m c main_v2) (V m c main_v4) :=
  (dats m 0 c).arrAt_eq_of_cover 2 (Garr (V m c main_v2) (V m c main_v4)) (fun t _ => flushed_eq m c t) fun i => by
    have hi0 : (i 0).val < 3 := (i 0).isLt
    have hi1 : (i 1).val < 4194304 := (i 1).isLt
    refine ⟨⟨(i 1).val / 2048, by rw [show cfg0.N = 2048 from N_0]; omega⟩, flush0_2 _, ?_⟩
    rw [mem_blk]
    obtain ⟨e4, e5⟩ := idx_win2 ⟨(i 1).val / 2048, by rw [show cfg0.N = 2048 from N_0]; omega⟩
    intro a
    match a with
    | ⟨0, _⟩ => show win0_2.index _ (0 : Fin 2) * 3 ≤ (i 0).val ∧ (i 0).val < win0_2.index _ (0 : Fin 2) * 3 + 3; omega
    | ⟨1, _⟩ => show win0_2.index _ (1 : Fin 2) * 2048 ≤ (i 1).val ∧ (i 1).val < win0_2.index _ (1 : Fin 2) * 2048 + 2048
                rw [e5]; show (i 1).val / 2048 * 2048 ≤ (i 1).val ∧ (i 1).val < (i 1).val / 2048 * 2048 + 2048; omega

/-! ## The lines after the region, and the run -/

/-- The kernel program's second result, [1, 3, 2048, 2048]: the output array regrouped. -/
def Kres (A : FVec Ideal S3x33x33x33 .f32) (B : FVec Ideal S1x3x2048x2048 .f32) : FVec Ideal S1x3x2048x2048 .f32 :=
  shapeCast S1x3x2048x2048 (Garr (lutK A) (imgK B)) shapeCasts_S3x4194304_S1x3x2048x2048

/-- The second result after the run: the region's output array, as the tail's reshape finds it. -/
theorem tail_v6 (c : Dev nD) :
    Pipeline.afterTail₀ cfgs (dats m) 0 (V0 m) [hostOps1] c main_v6
      = Kres (m ((c.tc : Thread nD τ).loc main_arg0)) (m ((c.tc : Thread nD τ).loc main_arg1)) := by
  have e : Pipeline.withArrays (cfgs 0).spec c (V0 m c) (fun w => (dats m 0 c).arrAt w (cfgs 0).N) (Proc.devRef .tc main_v5)
      = Garr (lutK (m ((c.tc : Thread nD τ).loc main_arg0))) (imgK (m ((c.tc : Thread nD τ).loc main_arg1))) :=
    ((Pipeline.withArrays_arr spec0 launch0.win.arr_inj c _ _ 2).trans (final m c)).trans (by rw [V_v2, V_v4])
  unfold Pipeline.afterTail₀
  show StableHlo.after hostOps1 _ (Proc.devRef .tc main_v6) = _
  after_results
  unfold Kres
  exact congrArg (fun X : FVec Ideal S3x4194304 .f32 => shapeCast S1x3x2048x2048 X shapeCasts_S3x4194304_S1x3x2048x2048) e

/-- The first result after the run: the table argument with a leading unit axis. -/
theorem tail_v7 (c : Dev nD) :
    Pipeline.afterTail₀ cfgs (dats m) 0 (V0 m) [hostOps1] c main_v7
      = broadcastInDim S1x3x33x33x33 ![1, 2, 3, 4] bcast_S3x33x33x33_S1x3x33x33x33_1_2_3_4 (m ((c.tc : Thread nD τ).loc main_arg0)) := by
  have e : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  unfold Pipeline.afterTail₀
  show StableHlo.after hostOps1 _ (Proc.devRef .tc main_v7) = _
  after_results
  exact congrArg (fun X : FVec Ideal S3x33x33x33 .f32 => broadcastInDim S1x3x33x33x33 ![1, 2, 3, 4] bcast_S3x33x33x33_S1x3x33x33x33_1_2_3_4 X) e

/-- The kernel program's run, read: every weakly fair execution terminates with the first result the table with a unit
    axis, the second `Kres` of the two arguments, and the arguments unchanged. -/
theorem run : θ_run defs (onTc (τ := τ) (main (F := Ideal))) ⟨m, fun _ => 0, ρ⟩ fun r => ∀ c : Dev nD,
      r.2.mem ((c.tc : Thread nD τ).loc main_v7) = broadcastInDim S1x3x33x33x33 ![1, 2, 3, 4] bcast_S3x33x33x33_S1x3x33x33x33_1_2_3_4 (m ((c.tc : Thread nD τ).loc main_arg0))
      ∧ r.2.mem ((c.tc : Thread nD τ).loc main_v6) = Kres (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (Pipeline.mem_restRefs_of main_v7 (by decide) (by decide))).trans (tail_v7 m c),
     ((h c).2 main_v6 (Pipeline.mem_restRefs_of main_v6 (by decide) (by decide))).trans (tail_v6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-! ## The second result at one element -/

theorem lutK_col (A : FVec Ideal S3x33x33x33 .f32) (k : Fin 1089) (ch : Fin 3) (xi : Fin 33) :
    lutK A (ix2 k ⟨33 * ch.val + xi.val, col_lt ch xi⟩) = A (ix4 ch ⟨k.val / 33, kdiv_lt k⟩ ⟨k.val % 33, kmod_lt k⟩ xi) :=
  (lutK_apply A k _).trans (congrArg A (by
    funext d; apply Fin.ext
    match d with
    | ⟨0, _⟩ => show (33 * ch.val + xi.val) / 33 = ch.val; have := xi.isLt; omega
    | ⟨1, _⟩ => rfl
    | ⟨2, _⟩ => rfl
    | ⟨3, _⟩ => show (33 * ch.val + xi.val) % 33 = xi.val; have := xi.isLt; omega))

theorem hw_lt (h w : Fin 2048) : h.val * 2048 + w.val < 4194304 := by have := h.isLt; have := w.isLt; omega

theorem imgK_pix (B : FVec Ideal S1x3x2048x2048 .f32) (j : Fin 3) (h w : Fin 2048) :
    imgK B (ix2 j ⟨h.val * 2048 + w.val, hw_lt h w⟩) = B (ix4 (0 : Fin 1) j h w) :=
  (imgK_apply B j _).trans (congrArg B (by
    funext d; apply Fin.ext
    match d with
    | ⟨0, _⟩ => rfl
    | ⟨1, _⟩ => rfl
    | ⟨2, _⟩ => show (h.val * 2048 + w.val) / 2048 = h.val; have := w.isLt; omega
    | ⟨3, _⟩ => show (h.val * 2048 + w.val) % 2048 = w.val; have := w.isLt; omega))

/-- The second result at channel `ch`, pixel `(h, w)` is `KSpec` of the two arguments there. -/
theorem Kres_apply (A : FVec Ideal S3x33x33x33 .f32) (B : FVec Ideal S1x3x2048x2048 .f32) (ch : Fin 3) (h w : Fin 2048) :
    Kres A B (ix4 (0 : Fin 1) ch h w) = KSpec A B ch h w := by
  unfold Kres
  rw [shapeCast_apply _ shapeCasts_S3x4194304_S1x3x2048x2048 (ix4 (0 : Fin 1) ch h w) (ix2 ch (⟨h.val * 2048 + w.val, hw_lt h w⟩ : Fin 4194304))
    (by rw [Shape.rowMajor_val_two, Shape.rowMajor_val_four]
        show ch.val * 4194304 + (h.val * 2048 + w.val) = ((0 * 3 + ch.val) * 2048 + h.val) * 2048 + w.val
        omega)]
  show (∑ xi : Fin 33, (∑ k : Fin 1089,
        (hatE ((k.val / 33 : ℕ) : ℝ) (kc (imgK B (ix2 (2 : Fin 3) ⟨h.val * 2048 + w.val, hw_lt h w⟩))) * hatE ((k.val % 33 : ℕ) : ℝ) (kc (imgK B (ix2 (1 : Fin 3) ⟨h.val * 2048 + w.val, hw_lt h w⟩))))
          * lutK A (ix2 k ⟨33 * ch.val + xi.val, col_lt ch xi⟩)) * hatE ((xi.val : ℕ) : ℝ) (kc (imgK B (ix2 (0 : Fin 3) ⟨h.val * 2048 + w.val, hw_lt h w⟩)))) = _
  simp only [imgK_pix, lutK_col]
  rfl

end Cert.KernelIdeal.Hand

end
-- ==== Proof.RefGather.lean ====
/-
  Two shape operations of the reference program read at an index.

  The reference program looks a [3, 33, 33, 33] table up at three integer coordinates per pixel. It first joins three
  [1, 2048, 2048, 1] integer arrays along the last axis into one [1, 2048, 2048, 3] array of start indices, and then
  gathers from the table with offset axis 0, the table's axes 1, 2, 3 collapsed and named (in this order) by the
  start index map, the index vector on the start indices' axis 3, and slice sizes [3, 1, 1, 1].

  * `concat3_apply_0/1/2`: element (0, h, w, k) of the join is element (0, h, w, 0) of the k-th piece: the pieces have
    extent 1 on the joined axis, so the extents before piece k sum to k and the coordinate inside the piece is 0.
  * `gather3_apply`: element (c, b, h, w) of the gather is the table's entry at channel c (the one offset axis, whose
    slice is the whole axis, so its start is 0) and, on each of the three collapsed axes, the start index component for
    pixel (h, w) on that axis, read as a signed integer and clamped into [0, 33 - 1]; the batch coordinate b ranges
    over an axis of extent 1 and so is 0.
-/
import proofs.«105660_j3358664425833_2_alg».proof.Proof.Gen.ReferenceIdeal
import Idealize.ShloMosaic.Lib.ValueIdx
import Idealize.ShloMosaic.Lib.Pipeline.Value

noncomputable section

namespace Cert.ReferenceIdeal.Hand

open Idealize.ShloMosaic Idealize.ShloMosaic.ValueIdx Cert.ReferenceIdeal Cert.ReferenceIdeal.Gen

/-- The join read at position 0 of the joined axis: piece 0 at the same pixel. The extents of the pieces before it
    sum to 0, and every coordinate off the joined axis is unchanged. -/
theorem concat3_apply_0 {α : Type} (u0 u1 u2 : S1x2048x2048x1.Idx → α) (h w : Fin 2048) :
    concatenate S1x2048x2048x3 3 [⟨S1x2048x2048x1, u0⟩, ⟨S1x2048x2048x1, u1⟩, ⟨S1x2048x2048x1, u2⟩]
      concatenates_S1x2048x2048x1_S1x2048x2048x1_S1x2048x2048x1_S1x2048x2048x3_d3 (ix4 0 h w 0) = u0 (ix4 0 h w 0) := by
  refine concatenate_apply_piece (3 : Fin S1x2048x2048x3.rank) _ _ (ix4 0 h w 0) 0 (by show (0 : Nat) < 3; omega) S1x2048x2048x1 u0 rfl rfl 0 rfl
    (ix4 0 h w 0) ?_ rfl
  intro b hb
  match b with
  | ⟨0, _⟩ => rfl
  | ⟨1, _⟩ => rfl
  | ⟨2, _⟩ => rfl
  | ⟨3, _⟩ => exact absurd rfl hb

/-- The join read at position 1 of the joined axis: piece 1 at the same pixel. The extents of the pieces before it
    sum to 1, and every coordinate off the joined axis is unchanged. -/
theorem concat3_apply_1 {α : Type} (u0 u1 u2 : S1x2048x2048x1.Idx → α) (h w : Fin 2048) :
    concatenate S1x2048x2048x3 3 [⟨S1x2048x2048x1, u0⟩, ⟨S1x2048x2048x1, u1⟩, ⟨S1x2048x2048x1, u2⟩]
      concatenates_S1x2048x2048x1_S1x2048x2048x1_S1x2048x2048x1_S1x2048x2048x3_d3 (ix4 0 h w 1) = u1 (ix4 0 h w 0) := by
  refine concatenate_apply_piece (3 : Fin S1x2048x2048x3.rank) _ _ (ix4 0 h w 1) 1 (by show (1 : Nat) < 3; omega) S1x2048x2048x1 u1 rfl rfl 1 rfl
    (ix4 0 h w 0) ?_ rfl
  intro b hb
  match b with
  | ⟨0, _⟩ => rfl
  | ⟨1, _⟩ => rfl
  | ⟨2, _⟩ => rfl
  | ⟨3, _⟩ => exact absurd rfl hb

/-- The join read at position 2 of the joined axis: piece 2 at the same pixel. The extents of the pieces before it
    sum to 2, and every coordinate off the joined axis is unchanged. -/
theorem concat3_apply_2 {α : Type} (u0 u1 u2 : S1x2048x2048x1.Idx → α) (h w : Fin 2048) :
    concatenate S1x2048x2048x3 3 [⟨S1x2048x2048x1, u0⟩, ⟨S1x2048x2048x1, u1⟩, ⟨S1x2048x2048x1, u2⟩]
      concatenates_S1x2048x2048x1_S1x2048x2048x1_S1x2048x2048x1_S1x2048x2048x3_d3 (ix4 0 h w 2) = u2 (ix4 0 h w 0) := by
  refine concatenate_apply_piece (3 : Fin S1x2048x2048x3.rank) _ _ (ix4 0 h w 2) 2 (by show (2 : Nat) < 3; omega) S1x2048x2048x1 u2 rfl rfl 2 rfl
    (ix4 0 h w 0) ?_ rfl
  intro b hb
  match b with
  | ⟨0, _⟩ => rfl
  | ⟨1, _⟩ => rfl
  | ⟨2, _⟩ => rfl
  | ⟨3, _⟩ => exact absurd rfl hb

local notation "GD" => gather_S3x33x33x33_S1x2048x2048x3_S3x1x2048x2048_0_123_n_n_123_3_3111

/-- The gather read at (c, b, h, w). Axis by axis of the table: axis 0 is not in the start index map (start 0), is not a
    batching axis, and is the one kept axis, read by the result's offset axis 0, so it carries c; each of axes 1, 2, 3
    is collapsed (offset 0), not batching, and is component 0, 1, 2 of the start index map, so it carries that
    component of the start index at (0, h, w, ·), signed and clamped to the extent less the slice size. The start
    indices are read at the result's batch coordinates (b, h, w) on axes 0, 1, 2, where b = 0 since that axis has
    extent 1, and at the component's number on the index vector's axis 3. -/
theorem gather3_apply {α : Type} (x : S3x33x33x33.Idx → α) (idx : IVec S1x2048x2048x3 32) (c : Fin 3) (b : Fin 1)
    (h w : Fin 2048) :
    Host.gather gather_S3x33x33x33_S1x2048x2048x3_S3x1x2048x2048_0_123_n_n_123_3_3111 x idx (ix4 c b h w)
      = x (ix4 c ⟨min (idx (ix4 0 h w 0)).toInt.toNat 32, by omega⟩
                 ⟨min (idx (ix4 0 h w 1)).toInt.toNat 32, by omega⟩
                 ⟨min (idx (ix4 0 h w 2)).toInt.toNat 32, by omega⟩) := by
  unfold Host.gather
  congr 1
  funext a
  refine Fin.ext ?_
  match a with
  -- axis 0: start 0, no batching, offset coordinate c
  | ⟨0, _⟩ =>
    show GatherDims.start GD (ix4 c b h w) idx 0 + GatherDims.batchCoord GD (ix4 c b h w) 0 + GatherDims.offCoord GD (ix4 c b h w) 0 = c.val
    rw [GatherDims.batchCoord_eq_zero _ _ _ List.not_mem_nil]
    unfold GatherDims.start
    rw [dif_neg (show (0 : Fin 4) ∉ (GD).startIndexMap from (show (0 : Fin 4) ∉ [(1 : Fin 4), 2, 3] by decide))]
    unfold GatherDims.offCoord
    rw [dif_pos (show (0 : Fin 4) ∈ (GD).sKept from (show (0 : Fin 4) ∈ [(0 : Fin 4)] by decide))]
    rw [Nat.zero_add]
    rfl
  -- axis 1: component 0 of the start index, clamped; no batching, collapsed
  | ⟨1, _⟩ =>
    show GatherDims.start GD (ix4 c b h w) idx 1 + GatherDims.batchCoord GD (ix4 c b h w) 1 + GatherDims.offCoord GD (ix4 c b h w) 1
      = min (idx (ix4 0 h w 0)).toInt.toNat 32
    rw [GatherDims.batchCoord_eq_zero _ _ _ List.not_mem_nil,
      GatherDims.offCoord_eq_zero _ _ _ (fun hm => ((GatherDims.mem_sKept _ _).mp hm).1
        (show (1 : Fin 4) ∈ [(1 : Fin 4), 2, 3] by decide))]
    simp only [Nat.add_zero]
    unfold GatherDims.start
    rw [dif_pos (show (1 : Fin 4) ∈ (GD).startIndexMap from (show (1 : Fin 4) ∈ [(1 : Fin 4), 2, 3] by decide))]
    have hsi : (GD).siIdx (ix4 c b h w) ⟨List.idxOf (1 : Fin 4) (GD).startIndexMap,
        List.idxOf_lt_length_iff.2 (show (1 : Fin 4) ∈ [(1 : Fin 4), 2, 3] by decide)⟩ = ix4 0 h w 0 := by
      funext e; refine Fin.ext ?_
      match e with
      | ⟨0, _⟩ => show b.val = 0; omega
      | ⟨1, _⟩ => rfl
      | ⟨2, _⟩ => rfl
      | ⟨3, _⟩ => rfl
    rw [hsi]
    rfl
  -- axis 2: component 1 of the start index, clamped; no batching, collapsed
  | ⟨2, _⟩ =>
    show GatherDims.start GD (ix4 c b h w) idx 2 + GatherDims.batchCoord GD (ix4 c b h w) 2 + GatherDims.offCoord GD (ix4 c b h w) 2
      = min (idx (ix4 0 h w 1)).toInt.toNat 32
    rw [GatherDims.batchCoord_eq_zero _ _ _ List.not_mem_nil,
      GatherDims.offCoord_eq_zero _ _ _ (fun hm => ((GatherDims.mem_sKept _ _).mp hm).1
        (show (2 : Fin 4) ∈ [(1 : Fin 4), 2, 3] by decide))]
    simp only [Nat.add_zero]
    unfold GatherDims.start
    rw [dif_pos (show (2 : Fin 4) ∈ (GD).startIndexMap from (show (2 : Fin 4) ∈ [(1 : Fin 4), 2, 3] by decide))]
    have hsi : (GD).siIdx (ix4 c b h w) ⟨List.idxOf (2 : Fin 4) (GD).startIndexMap,
        List.idxOf_lt_length_iff.2 (show (2 : Fin 4) ∈ [(1 : Fin 4), 2, 3] by decide)⟩ = ix4 0 h w 1 := by
      funext e; refine Fin.ext ?_
      match e with
      | ⟨0, _⟩ => show b.val = 0; omega
      | ⟨1, _⟩ => rfl
      | ⟨2, _⟩ => rfl
      | ⟨3, _⟩ => rfl
    rw [hsi]
    rfl
  -- axis 3: component 2 of the start index, clamped; no batching, collapsed
  | ⟨3, _⟩ =>
    show GatherDims.start GD (ix4 c b h w) idx 3 + GatherDims.batchCoord GD (ix4 c b h w) 3 + GatherDims.offCoord GD (ix4 c b h w) 3
      = min (idx (ix4 0 h w 2)).toInt.toNat 32
    rw [GatherDims.batchCoord_eq_zero _ _ _ List.not_mem_nil,
      GatherDims.offCoord_eq_zero _ _ _ (fun hm => ((GatherDims.mem_sKept _ _).mp hm).1
        (show (3 : Fin 4) ∈ [(1 : Fin 4), 2, 3] by decide))]
    simp only [Nat.add_zero]
    unfold GatherDims.start
    rw [dif_pos (show (3 : Fin 4) ∈ (GD).startIndexMap from (show (3 : Fin 4) ∈ [(1 : Fin 4), 2, 3] by decide))]
    have hsi : (GD).siIdx (ix4 c b h w) ⟨List.idxOf (3 : Fin 4) (GD).startIndexMap,
        List.idxOf_lt_length_iff.2 (show (3 : Fin 4) ∈ [(1 : Fin 4), 2, 3] by decide)⟩ = ix4 0 h w 2 := by
      funext e; refine Fin.ext ?_
      match e with
      | ⟨0, _⟩ => show b.val = 0; omega
      | ⟨1, _⟩ => rfl
      | ⟨2, _⟩ => rfl
      | ⟨3, _⟩ => rfl
    rw [hsi]
    rfl

end Cert.ReferenceIdeal.Hand

end
-- ==== Proof.RefSpec.lean ====
/-
  What the reference computes at one output element, written on scalars.

  For channel `ch` and pixel `(h, w)`: each of the pixel's three inputs `v` becomes the coordinate
  `clip(((v − 1/2)·2 + 1)·(1/2)·32, 0, 32)`; along each axis the lower node is the coordinate's floor converted to a
  32-bit integer, the upper node that integer plus one capped at 32, and the fraction the coordinate less its floor;
  a node indexes the table after the wrap of a negative index (add 33 where below zero) and the gather's clamp into
  [0, 32]; the result blends the eight neighbouring table entries along x, then y, then z.
-/
import proofs.«105660_j3358664425833_2_alg».proof.Proof.Gen.ReferenceIdeal
import Idealize.ShloMosaic.Lib.ValueIdx
import Idealize.ShloMosaic.PureOps.Ideal

noncomputable section

namespace Cert.ReferenceIdeal.Hand

open Idealize.ShloMosaic Idealize.ShloMosaic.ValueIdx Cert.ReferenceIdeal

/-- The coordinate of one input (the literals are 1/2, 2, 1, 1/2, 32, and the clip's 0 and 32). -/
def pixE (v : EReal) : EReal :=
  min (Ideal.ofBits .f32 0x42000000#32)
    (max (Ideal.ofBits .f32 0x00000000#32)
      ((((v - Ideal.ofBits .f32 0x3F000000#32) * Ideal.ofBits .f32 0x40000000#32 + Ideal.ofBits .f32 0x3F800000#32)
          * Ideal.ofBits .f32 0x3F000000#32) * Ideal.ofBits .f32 0x42000000#32))

/-- The coordinate's floor. -/
def flE (q : EReal) : EReal := Ideal.liftRound Int.floor q
/-- The coordinate's fraction. -/
def frE (q : EReal) : EReal := q - flE q
/-- The lower node, as a 32-bit integer. -/
def loW (q : EReal) : BitVec 32 := Ideal.fptosi 32 (flE q)
/-- The upper node: the lower plus one, capped at 32. -/
def hiW (q : EReal) : BitVec 32 := IntOp.minsi (IntOp.addi (loW q) 1#32) 32#32
/-- A node as a table position: a negative index wrapped by 33, then read signed and clamped into [0, 32]. -/
def giN (b : BitVec 32) : ℕ := min (Scalar.select (IntOp.cmpi .slt b 0#32) (IntOp.addi b 33#32) b).toInt.toNat 32
theorem giN_lt (b : BitVec 32) : giN b < 33 := by unfold giN; omega

/-- The table entry of channel `ch` at the three nodes (z, y, x). -/
def cornerE (A : FVec Ideal S3x33x33x33 .f32) (ch : Fin 3) (bz by_ bx : BitVec 32) : EReal :=
  A (ix4 ch ⟨giN bz, giN_lt bz⟩ ⟨giN by_, giN_lt by_⟩ ⟨giN bx, giN_lt bx⟩)

/-- The blend of eight corners along x, then y, then z (the literal is 1). -/
def blendE (c000 c001 c010 c011 c100 c101 c110 c111 fx fy fz : EReal) : EReal :=
  ((c000 * (Ideal.ofBits .f32 0x3F800000#32 - fx) + c001 * fx) * (Ideal.ofBits .f32 0x3F800000#32 - fy)
      + (c010 * (Ideal.ofBits .f32 0x3F800000#32 - fx) + c011 * fx) * fy) * (Ideal.ofBits .f32 0x3F800000#32 - fz)
    + ((c100 * (Ideal.ofBits .f32 0x3F800000#32 - fx) + c101 * fx) * (Ideal.ofBits .f32 0x3F800000#32 - fy)
      + (c110 * (Ideal.ofBits .f32 0x3F800000#32 - fx) + c111 * fx) * fy) * fz

/-- Input `j` (0: x, 1: y, 2: z) of pixel `(h, w)`, as a coordinate. -/
def pxE (B : FVec Ideal S1x3x2048x2048 .f32) (j : Fin 3) (h w : Fin 2048) : EReal := pixE (B (ix4 (0 : Fin 1) j h w))

/-- The reference's result at channel `ch`, pixel `(h, w)`. -/
def RefSpec (A : FVec Ideal S3x33x33x33 .f32) (B : FVec Ideal S1x3x2048x2048 .f32) (ch : Fin 3) (h w : Fin 2048) : EReal :=
  blendE
    (cornerE A ch (loW (pxE B 2 h w)) (loW (pxE B 1 h w)) (loW (pxE B 0 h w)))
    (cornerE A ch (loW (pxE B 2 h w)) (loW (pxE B 1 h w)) (hiW (pxE B 0 h w)))
    (cornerE A ch (loW (pxE B 2 h w)) (hiW (pxE B 1 h w)) (loW (pxE B 0 h w)))
    (cornerE A ch (loW (pxE B 2 h w)) (hiW (pxE B 1 h w)) (hiW (pxE B 0 h w)))
    (cornerE A ch (hiW (pxE B 2 h w)) (loW (pxE B 1 h w)) (loW (pxE B 0 h w)))
    (cornerE A ch (hiW (pxE B 2 h w)) (loW (pxE B 1 h w)) (hiW (pxE B 0 h w)))
    (cornerE A ch (hiW (pxE B 2 h w)) (hiW (pxE B 1 h w)) (loW (pxE B 0 h w)))
    (cornerE A ch (hiW (pxE B 2 h w)) (hiW (pxE B 1 h w)) (hiW (pxE B 0 h w)))
    (frE (pxE B 0 h w)) (frE (pxE B 1 h w)) (frE (pxE B 2 h w))

end Cert.ReferenceIdeal.Hand

end
-- ==== Proof.RefValue.lean ====
/-
  The reference program read at one output element.

  For channel ch and pixel (h, w) the reference's first result at (0, ch, h, w) is the scalar expression RefSpec: the
  three inputs of the pixel become coordinates (affine map, clip), each coordinate gives a lower node (floor, as a
  32-bit integer), an upper node (lower plus one, capped at 32) and a fraction; eight table entries are read at the
  combinations of lower and upper nodes along (z, y, x), each node wrapped where negative and clamped by the gather;
  and the entries are blended along x, then y, then z.

  The proof follows the program. First some facts about the raw operations at an index: a [1, 2048, 2048] array laid
  on [1, 2048, 2048, 1] or on [1, 1, 2048, 2048], a [1, 1, 2048, 2048] array repeated over the three channels, the
  wrap of a negative index, one whole gather block (three wraps, three layouts, the join, the gather) as one table
  read, and one blend step. Then the stages of the program in order: the coordinates, fractions and nodes of a
  pixel; the eight table reads; the seven blend steps; the transposition.
-/
import proofs.«105660_j3358664425833_2_alg».proof.Proof.RefReadP
import proofs.«105660_j3358664425833_2_alg».proof.Proof.RefGather
import proofs.«105660_j3358664425833_2_alg».proof.Proof.RefSpec
import Idealize.ShloMosaic.Lib.ValueIdx
import Idealize.ShloMosaic.Lib.Pipeline.Value

noncomputable section

namespace Cert.ReferenceIdeal.Hand

open Idealize.ShloMosaic Idealize.ShloMosaic.ValueIdx Cert.ReferenceIdeal Cert.ReferenceIdeal.Gen Cert.ReferenceIdeal.Read

/-- Every index of a [1, 2048, 2048] array is (0, h, w). -/
theorem eq_ix3_0 (i : S1x2048x2048.Idx) : i = ix3 (0 : Fin 1) (i 1) (i 2) := by
  funext a
  match a with
  | ⟨0, _⟩ => exact Fin.ext (by have h0 : (i 0).val < 1 := (i 0).isLt; show (i 0).val = 0; omega)
  | ⟨1, _⟩ => rfl
  | ⟨2, _⟩ => rfl

/-- A [1, 2048, 2048] array placed on the first three axes of [1, 2048, 2048, 1], read at (0, h, w, 0). -/
theorem bcast_col_apply {α : Type} (y : S1x2048x2048.Idx → α) (a b : Fin 1) (h w : Fin 2048) :
    broadcastInDim S1x2048x2048x1 ![0, 1, 2] bcast_S1x2048x2048_S1x2048x2048x1_0_1_2 y (ix4 a h w b)
      = y (ix3 (0 : Fin 1) h w) :=
  broadcastInDim_apply _ bcast_S1x2048x2048_S1x2048x2048x1_0_1_2 y _ (ix3 (0 : Fin 1) h w) (fun a => match a with
    | ⟨0, _⟩ => rfl
    | ⟨1, _⟩ => rfl
    | ⟨2, _⟩ => rfl)

/-- The wrap of a negative index, on whole arrays: where the node is below zero, the node plus 33. -/
def wrapV (n : IVec S1x2048x2048 32) : IVec S1x2048x2048 32 :=
  select (cmpi .slt n (broadcastInDim S1x2048x2048 ![] bcast_S_S1x2048x2048 (constantI S_ 32 0#32)))
    (addi n (broadcastInDim S1x2048x2048 ![] bcast_S_S1x2048x2048 (constantI S_ 32 33#32))) n

theorem wrapV_apply (n : IVec S1x2048x2048 32) (i : S1x2048x2048.Idx) :
    wrapV n i = Scalar.select (IntOp.cmpi .slt (n i) 0#32) (IntOp.addi (n i) 33#32) (n i) := rfl

/-- Two table reads at the same channel agree when their three node positions agree as numbers. -/
theorem table_congr {α : Type} (A : S3x33x33x33.Idx → α) (ch : Fin 3) (a b c a' b' c' : Nat)
    (pa : a < 33) (pb : b < 33) (pc : c < 33) (pa' : a' < 33) (pb' : b' < 33) (pc' : c' < 33)
    (ha : a = a') (hb : b = b') (hc : c = c') :
    A (ix4 ch ⟨a, pa⟩ ⟨b, pb⟩ ⟨c, pc⟩) = A (ix4 ch ⟨a', pa'⟩ ⟨b', pb'⟩ ⟨c', pc'⟩) := by
  subst ha hb hc; rfl

/-- One gather block at (ch, 0, h, w): the table entry at the three wrapped and clamped nodes. -/
theorem corner_raw (A : FVec Ideal S3x33x33x33 .f32) (nz ny nx : IVec S1x2048x2048 32) (ch : Fin 3) (h w : Fin 2048) :
    Host.gather gather_S3x33x33x33_S1x2048x2048x3_S3x1x2048x2048_0_123_n_n_123_3_3111 A
      (concatenate S1x2048x2048x3 3
        [⟨S1x2048x2048x1, broadcastInDim S1x2048x2048x1 ![0, 1, 2] bcast_S1x2048x2048_S1x2048x2048x1_0_1_2 (wrapV nz)⟩,
         ⟨S1x2048x2048x1, broadcastInDim S1x2048x2048x1 ![0, 1, 2] bcast_S1x2048x2048_S1x2048x2048x1_0_1_2 (wrapV ny)⟩,
         ⟨S1x2048x2048x1, broadcastInDim S1x2048x2048x1 ![0, 1, 2] bcast_S1x2048x2048_S1x2048x2048x1_0_1_2 (wrapV nx)⟩]
        concatenates_S1x2048x2048x1_S1x2048x2048x1_S1x2048x2048x1_S1x2048x2048x3_d3)
      (ix4 ch (0 : Fin 1) h w)
    = cornerE A ch (nz (ix3 (0 : Fin 1) h w)) (ny (ix3 (0 : Fin 1) h w)) (nx (ix3 (0 : Fin 1) h w)) := by
  rw [gather3_apply]
  refine table_congr A ch _ _ _ _ _ _ _ _ _ _ _ _ ?_ ?_ ?_
  · rw [concat3_apply_0, bcast_col_apply, wrapV_apply]; rfl
  · rw [concat3_apply_1, bcast_col_apply, wrapV_apply]; rfl
  · rw [concat3_apply_2, bcast_col_apply, wrapV_apply]; rfl

/-- A [1, 2048, 2048] array placed on the last three axes of [1, 1, 2048, 2048], read at (0, 0, h, w). -/
theorem bcast_row_apply {α : Type} (y : S1x2048x2048.Idx → α) (a b : Fin 1) (h w : Fin 2048) :
    broadcastInDim S1x1x2048x2048 ![1, 2, 3] bcast_S1x2048x2048_S1x1x2048x2048_1_2_3 y (ix4 a b h w)
      = y (ix3 (0 : Fin 1) h w) :=
  broadcastInDim_apply _ bcast_S1x2048x2048_S1x1x2048x2048_1_2_3 y _ (ix3 (0 : Fin 1) h w) (fun a => match a with
    | ⟨0, _⟩ => rfl
    | ⟨1, _⟩ => rfl
    | ⟨2, _⟩ => rfl)

/-- A [1, 1, 2048, 2048] array repeated over three channels, read at (ch, 0, h, w). -/
theorem bcast_chan_apply {α : Type} (y : S1x1x2048x2048.Idx → α) (ch : Fin 3) (b : Fin 1) (h w : Fin 2048) :
    broadcastInDim S3x1x2048x2048 ![0, 1, 2, 3] bcast_S1x1x2048x2048_S3x1x2048x2048_0_1_2_3 y (ix4 ch b h w)
      = y (ix4 (0 : Fin 1) (0 : Fin 1) h w) :=
  broadcastInDim_apply _ bcast_S1x1x2048x2048_S3x1x2048x2048_0_1_2_3 y _ (ix4 (0 : Fin 1) (0 : Fin 1) h w) (fun a => match a with
    | ⟨0, _⟩ => rfl
    | ⟨1, _⟩ => rfl
    | ⟨2, _⟩ => rfl
    | ⟨3, _⟩ => rfl)

/-- One blend step at (ch, 0, h, w): the two stages weighted by one minus the fraction and by the fraction. -/
theorem lerp_raw (c0 c1 : FVec Ideal S3x1x2048x2048 .f32) (f : FVec Ideal S1x1x2048x2048 .f32) (ch : Fin 3) (h w : Fin 2048) :
    addf
      (mulf c0 (broadcastInDim S3x1x2048x2048 ![0, 1, 2, 3] bcast_S1x1x2048x2048_S3x1x2048x2048_0_1_2_3
        (subf (broadcastInDim S1x1x2048x2048 ![] bcast_S_S1x1x2048x2048 (constant S_ .f32 0x3F800000#32)) f)))
      (mulf c1 (broadcastInDim S3x1x2048x2048 ![0, 1, 2, 3] bcast_S1x1x2048x2048_S3x1x2048x2048_0_1_2_3 f))
      (ix4 ch (0 : Fin 1) h w)
    = c0 (ix4 ch (0 : Fin 1) h w) * (Ideal.ofBits .f32 0x3F800000#32 - f (ix4 (0 : Fin 1) (0 : Fin 1) h w))
      + c1 (ix4 ch (0 : Fin 1) h w) * f (ix4 (0 : Fin 1) (0 : Fin 1) h w) := by
  show c0 (ix4 ch (0 : Fin 1) h w) * (broadcastInDim S3x1x2048x2048 ![0, 1, 2, 3] bcast_S1x1x2048x2048_S3x1x2048x2048_0_1_2_3
        (subf (broadcastInDim S1x1x2048x2048 ![] bcast_S_S1x1x2048x2048 (constant S_ .f32 0x3F800000#32)) f) (ix4 ch (0 : Fin 1) h w))
      + c1 (ix4 ch (0 : Fin 1) h w) * (broadcastInDim S3x1x2048x2048 ![0, 1, 2, 3] bcast_S1x1x2048x2048_S3x1x2048x2048_0_1_2_3 f (ix4 ch (0 : Fin 1) h w)) = _
  rw [bcast_chan_apply, bcast_chan_apply]
  rfl

/-! ## The coordinates of a pixel -/

/-- The affine map and the clip, at any index. -/
theorem pix_apply (B : FVec Ideal S1x3x2048x2048 .f32) (i : S1x3x2048x2048.Idx) :
    val_main_v10 (F := Ideal) B i = pixE (B i) := rfl

/-- The reshape [1, 1, 2048, 2048] → [1, 2048, 2048] reads (0, h, w) at (0, 0, h, w): the row-major position of
    (0, h, w) is h·2048 + w. -/
theorem idx_v12 (h w : Fin 2048) : idx_main_v12 (ix3 (0 : Fin 1) h w) = (ix4 (0 : Fin 1) (0 : Fin 1) h w) := by
  funext a
  match a with
  | ⟨0, _⟩ => rfl
  | ⟨1, _⟩ => rfl
  | ⟨2, _⟩ =>
    exact Fin.ext (by
      have h1 := h.isLt; have h2 := w.isLt
      show ((0 * 2048 + h.val) * 2048 + w.val) / 2048 % 2048 = h.val; omega)
  | ⟨3, _⟩ =>
    exact Fin.ext (by
      have h1 := h.isLt; have h2 := w.isLt
      show ((0 * 2048 + h.val) * 2048 + w.val) % 2048 = w.val; omega)
theorem idx_v14 (h w : Fin 2048) : idx_main_v14 (ix3 (0 : Fin 1) h w) = (ix4 (0 : Fin 1) (0 : Fin 1) h w) := idx_v12 h w
theorem idx_v16 (h w : Fin 2048) : idx_main_v16 (ix3 (0 : Fin 1) h w) = (ix4 (0 : Fin 1) (0 : Fin 1) h w) := idx_v12 h w

/-- The slice of input 0 reads (0, 0, h, w) at (0, 0, h, w). -/
theorem idx_v11 (h w : Fin 2048) : idx_main_v11 (ix4 (0 : Fin 1) (0 : Fin 1) h w) = ix4 (0 : Fin 1) (0 : Fin 3) h w := by
  funext a
  match a with
  | ⟨0, _⟩ => rfl
  | ⟨1, _⟩ => rfl
  | ⟨2, _⟩ => rfl
  | ⟨3, _⟩ => rfl

/-- Coordinate 0 of pixel (h, w). -/
theorem coord0 (B : FVec Ideal S1x3x2048x2048 .f32) (h w : Fin 2048) : val_main_v12 (F := Ideal) B (ix3 (0 : Fin 1) h w) = pxE B 0 h w := by
  rw [val_main_v12_apply, idx_v12, val_main_v11_apply, idx_v11, pix_apply]
  rfl

/-- Its fraction. -/
theorem fr0 (B : FVec Ideal S1x3x2048x2048 .f32) (h w : Fin 2048) : val_main_v20 (F := Ideal) B (ix3 (0 : Fin 1) h w) = frE (pxE B 0 h w) := by
  rw [← coord0]; rfl

/-- Its lower node. -/
theorem lo0 (B : FVec Ideal S1x3x2048x2048 .f32) (h w : Fin 2048) : val_main_v23 (F := Ideal) B (ix3 (0 : Fin 1) h w) = loW (pxE B 0 h w) := by
  rw [← coord0]; rfl

/-- Its upper node. -/
theorem hi0 (B : FVec Ideal S1x3x2048x2048 .f32) (h w : Fin 2048) : val_main_v29 (F := Ideal) B (ix3 (0 : Fin 1) h w) = hiW (pxE B 0 h w) := by
  rw [← coord0]; rfl

/-- The slice of input 1 reads (0, 0, h, w) at (0, 1, h, w). -/
theorem idx_v13 (h w : Fin 2048) : idx_main_v13 (ix4 (0 : Fin 1) (0 : Fin 1) h w) = ix4 (0 : Fin 1) (1 : Fin 3) h w := by
  funext a
  match a with
  | ⟨0, _⟩ => rfl
  | ⟨1, _⟩ => rfl
  | ⟨2, _⟩ => rfl
  | ⟨3, _⟩ => rfl

/-- Coordinate 1 of pixel (h, w). -/
theorem coord1 (B : FVec Ideal S1x3x2048x2048 .f32) (h w : Fin 2048) : val_main_v14 (F := Ideal) B (ix3 (0 : Fin 1) h w) = pxE B 1 h w := by
  rw [val_main_v14_apply, idx_v14, val_main_v13_apply, idx_v13, pix_apply]
  rfl

/-- Its fraction. -/
theorem fr1 (B : FVec Ideal S1x3x2048x2048 .f32) (h w : Fin 2048) : val_main_v21 (F := Ideal) B (ix3 (0 : Fin 1) h w) = frE (pxE B 1 h w) := by
  rw [← coord1]; rfl

/-- Its lower node. -/
theorem lo1 (B : FVec Ideal S1x3x2048x2048 .f32) (h w : Fin 2048) : val_main_v24 (F := Ideal) B (ix3 (0 : Fin 1) h w) = loW (pxE B 1 h w) := by
  rw [← coord1]; rfl

/-- Its upper node. -/
theorem hi1 (B : FVec Ideal S1x3x2048x2048 .f32) (h w : Fin 2048) : val_main_v33 (F := Ideal) B (ix3 (0 : Fin 1) h w) = hiW (pxE B 1 h w) := by
  rw [← coord1]; rfl

/-- The slice of input 2 reads (0, 0, h, w) at (0, 2, h, w). -/
theorem idx_v15 (h w : Fin 2048) : idx_main_v15 (ix4 (0 : Fin 1) (0 : Fin 1) h w) = ix4 (0 : Fin 1) (2 : Fin 3) h w := by
  funext a
  match a with
  | ⟨0, _⟩ => rfl
  | ⟨1, _⟩ => rfl
  | ⟨2, _⟩ => rfl
  | ⟨3, _⟩ => rfl

/-- Coordinate 2 of pixel (h, w). -/
theorem coord2 (B : FVec Ideal S1x3x2048x2048 .f32) (h w : Fin 2048) : val_main_v16 (F := Ideal) B (ix3 (0 : Fin 1) h w) = pxE B 2 h w := by
  rw [val_main_v16_apply, idx_v16, val_main_v15_apply, idx_v15, pix_apply]
  rfl

/-- Its fraction. -/
theorem fr2 (B : FVec Ideal S1x3x2048x2048 .f32) (h w : Fin 2048) : val_main_v22 (F := Ideal) B (ix3 (0 : Fin 1) h w) = frE (pxE B 2 h w) := by
  rw [← coord2]; rfl

/-- Its lower node. -/
theorem lo2 (B : FVec Ideal S1x3x2048x2048 .f32) (h w : Fin 2048) : val_main_v25 (F := Ideal) B (ix3 (0 : Fin 1) h w) = loW (pxE B 2 h w) := by
  rw [← coord2]; rfl

/-- Its upper node. -/
theorem hi2 (B : FVec Ideal S1x3x2048x2048 .f32) (h w : Fin 2048) : val_main_v37 (F := Ideal) B (ix3 (0 : Fin 1) h w) = hiW (pxE B 2 h w) := by
  rw [← coord2]; rfl

/-! ## The eight table reads -/

/-- The table read at the (lo, lo, lo) nodes along (z, y, x). -/
theorem corner57 (A : FVec Ideal S3x33x33x33 .f32) (B : FVec Ideal S1x3x2048x2048 .f32) (ch : Fin 3) (h w : Fin 2048) :
    val_main_v57 (F := Ideal) A B (ix4 ch (0 : Fin 1) h w) = cornerE A ch (loW (pxE B 2 h w)) (loW (pxE B 1 h w)) (loW (pxE B 0 h w)) := by
  have e := corner_raw A (val_main_v25 (F := Ideal) B) (val_main_v24 (F := Ideal) B)
    (val_main_v23 (F := Ideal) B) ch h w
  rw [lo2, lo1, lo0] at e
  exact e

/-- The table read at the (lo, lo, hi) nodes along (z, y, x). -/
theorem corner77 (A : FVec Ideal S3x33x33x33 .f32) (B : FVec Ideal S1x3x2048x2048 .f32) (ch : Fin 3) (h w : Fin 2048) :
    val_main_v77 (F := Ideal) A B (ix4 ch (0 : Fin 1) h w) = cornerE A ch (loW (pxE B 2 h w)) (loW (pxE B 1 h w)) (hiW (pxE B 0 h w)) := by
  have e := corner_raw A (val_main_v25 (F := Ideal) B) (val_main_v24 (F := Ideal) B)
    (val_main_v29 (F := Ideal) B) ch h w
  rw [lo2, lo1, hi0] at e
  exact e

/-- The table read at the (lo, hi, lo) nodes along (z, y, x). -/
theorem corner97 (A : FVec Ideal S3x33x33x33 .f32) (B : FVec Ideal S1x3x2048x2048 .f32) (ch : Fin 3) (h w : Fin 2048) :
    val_main_v97 (F := Ideal) A B (ix4 ch (0 : Fin 1) h w) = cornerE A ch (loW (pxE B 2 h w)) (hiW (pxE B 1 h w)) (loW (pxE B 0 h w)) := by
  have e := corner_raw A (val_main_v25 (F := Ideal) B) (val_main_v33 (F := Ideal) B)
    (val_main_v23 (F := Ideal) B) ch h w
  rw [lo2, hi1, lo0] at e
  exact e

/-- The table read at the (lo, hi, hi) nodes along (z, y, x). -/
theorem corner117 (A : FVec Ideal S3x33x33x33 .f32) (B : FVec Ideal S1x3x2048x2048 .f32) (ch : Fin 3) (h w : Fin 2048) :
    val_main_v117 (F := Ideal) A B (ix4 ch (0 : Fin 1) h w) = cornerE A ch (loW (pxE B 2 h w)) (hiW (pxE B 1 h w)) (hiW (pxE B 0 h w)) := by
  have e := corner_raw A (val_main_v25 (F := Ideal) B) (val_main_v33 (F := Ideal) B)
    (val_main_v29 (F := Ideal) B) ch h w
  rw [lo2, hi1, hi0] at e
  exact e

/-- The table read at the (hi, lo, lo) nodes along (z, y, x). -/
theorem corner137 (A : FVec Ideal S3x33x33x33 .f32) (B : FVec Ideal S1x3x2048x2048 .f32) (ch : Fin 3) (h w : Fin 2048) :
    val_main_v137 (F := Ideal) A B (ix4 ch (0 : Fin 1) h w) = cornerE A ch (hiW (pxE B 2 h w)) (loW (pxE B 1 h w)) (loW (pxE B 0 h w)) := by
  have e := corner_raw A (val_main_v37 (F := Ideal) B) (val_main_v24 (F := Ideal) B)
    (val_main_v23 (F := Ideal) B) ch h w
  rw [hi2, lo1, lo0] at e
  exact e

/-- The table read at the (hi, lo, hi) nodes along (z, y, x). -/
theorem corner157 (A : FVec Ideal S3x33x33x33 .f32) (B : FVec Ideal S1x3x2048x2048 .f32) (ch : Fin 3) (h w : Fin 2048) :
    val_main_v157 (F := Ideal) A B (ix4 ch (0 : Fin 1) h w) = cornerE A ch (hiW (pxE B 2 h w)) (loW (pxE B 1 h w)) (hiW (pxE B 0 h w)) := by
  have e := corner_raw A (val_main_v37 (F := Ideal) B) (val_main_v24 (F := Ideal) B)
    (val_main_v29 (F := Ideal) B) ch h w
  rw [hi2, lo1, hi0] at e
  exact e

/-- The table read at the (hi, hi, lo) nodes along (z, y, x). -/
theorem corner177 (A : FVec Ideal S3x33x33x33 .f32) (B : FVec Ideal S1x3x2048x2048 .f32) (ch : Fin 3) (h w : Fin 2048) :
    val_main_v177 (F := Ideal) A B (ix4 ch (0 : Fin 1) h w) = cornerE A ch (hiW (pxE B 2 h w)) (hiW (pxE B 1 h w)) (loW (pxE B 0 h w)) := by
  have e := corner_raw A (val_main_v37 (F := Ideal) B) (val_main_v33 (F := Ideal) B)
    (val_main_v23 (F := Ideal) B) ch h w
  rw [hi2, hi1, lo0] at e
  exact e

/-- The table read at the (hi, hi, hi) nodes along (z, y, x). -/
theorem corner197 (A : FVec Ideal S3x33x33x33 .f32) (B : FVec Ideal S1x3x2048x2048 .f32) (ch : Fin 3) (h w : Fin 2048) :
    val_main_v197 (F := Ideal) A B (ix4 ch (0 : Fin 1) h w) = cornerE A ch (hiW (pxE B 2 h w)) (hiW (pxE B 1 h w)) (hiW (pxE B 0 h w)) := by
  have e := corner_raw A (val_main_v37 (F := Ideal) B) (val_main_v33 (F := Ideal) B)
    (val_main_v29 (F := Ideal) B) ch h w
  rw [hi2, hi1, hi0] at e
  exact e

/-! ## The blends -/

/-- The fraction along axis 0, on the [1, 1, 2048, 2048] layout. -/
theorem frb0 (B : FVec Ideal S1x3x2048x2048 .f32) (h w : Fin 2048) : val_main_v198 (F := Ideal) B (ix4 (0 : Fin 1) (0 : Fin 1) h w) = frE (pxE B 0 h w) := by
  have e := bcast_row_apply (val_main_v20 (F := Ideal) B) (0 : Fin 1) (0 : Fin 1) h w
  rw [fr0] at e
  exact e

/-- The fraction along axis 1, on the [1, 1, 2048, 2048] layout. -/
theorem frb1 (B : FVec Ideal S1x3x2048x2048 .f32) (h w : Fin 2048) : val_main_v199 (F := Ideal) B (ix4 (0 : Fin 1) (0 : Fin 1) h w) = frE (pxE B 1 h w) := by
  have e := bcast_row_apply (val_main_v21 (F := Ideal) B) (0 : Fin 1) (0 : Fin 1) h w
  rw [fr1] at e
  exact e

/-- The fraction along axis 2, on the [1, 1, 2048, 2048] layout. -/
theorem frb2 (B : FVec Ideal S1x3x2048x2048 .f32) (h w : Fin 2048) : val_main_v200 (F := Ideal) B (ix4 (0 : Fin 1) (0 : Fin 1) h w) = frE (pxE B 2 h w) := by
  have e := bcast_row_apply (val_main_v22 (F := Ideal) B) (0 : Fin 1) (0 : Fin 1) h w
  rw [fr2] at e
  exact e

/-- The blend along x of the reads %57 and %77. -/
theorem blend207 (A : FVec Ideal S3x33x33x33 .f32) (B : FVec Ideal S1x3x2048x2048 .f32) (ch : Fin 3) (h w : Fin 2048) :
    val_main_v207 (F := Ideal) A B (ix4 ch (0 : Fin 1) h w)
      = (cornerE A ch (loW (pxE B 2 h w)) (loW (pxE B 1 h w)) (loW (pxE B 0 h w))) * (Ideal.ofBits .f32 0x3F800000#32 - frE (pxE B 0 h w)) + (cornerE A ch (loW (pxE B 2 h w)) (loW (pxE B 1 h w)) (hiW (pxE B 0 h w))) * frE (pxE B 0 h w) := by
  have e := lerp_raw (val_main_v57 (F := Ideal) A B) (val_main_v77 (F := Ideal) A B) (val_main_v198 (F := Ideal) B) ch h w
  rw [corner57, corner77, frb0] at e
  exact e

/-- The blend along x of the reads %97 and %117. -/
theorem blend214 (A : FVec Ideal S3x33x33x33 .f32) (B : FVec Ideal S1x3x2048x2048 .f32) (ch : Fin 3) (h w : Fin 2048) :
    val_main_v214 (F := Ideal) A B (ix4 ch (0 : Fin 1) h w)
      = (cornerE A ch (loW (pxE B 2 h w)) (hiW (pxE B 1 h w)) (loW (pxE B 0 h w))) * (Ideal.ofBits .f32 0x3F800000#32 - frE (pxE B 0 h w)) + (cornerE A ch (loW (pxE B 2 h w)) (hiW (pxE B 1 h w)) (hiW (pxE B 0 h w))) * frE (pxE B 0 h w) := by
  have e := lerp_raw (val_main_v97 (F := Ideal) A B) (val_main_v117 (F := Ideal) A B) (val_main_v198 (F := Ideal) B) ch h w
  rw [corner97, corner117, frb0] at e
  exact e

/-- The blend along x of the reads %137 and %157. -/
theorem blend221 (A : FVec Ideal S3x33x33x33 .f32) (B : FVec Ideal S1x3x2048x2048 .f32) (ch : Fin 3) (h w : Fin 2048) :
    val_main_v221 (F := Ideal) A B (ix4 ch (0 : Fin 1) h w)
      = (cornerE A ch (hiW (pxE B 2 h w)) (loW (pxE B 1 h w)) (loW (pxE B 0 h w))) * (Ideal.ofBits .f32 0x3F800000#32 - frE (pxE B 0 h w)) + (cornerE A ch (hiW (pxE B 2 h w)) (loW (pxE B 1 h w)) (hiW (pxE B 0 h w))) * frE (pxE B 0 h w) := by
  have e := lerp_raw (val_main_v137 (F := Ideal) A B) (val_main_v157 (F := Ideal) A B) (val_main_v198 (F := Ideal) B) ch h w
  rw [corner137, corner157, frb0] at e
  exact e

/-- The blend along x of the reads %177 and %197. -/
theorem blend228 (A : FVec Ideal S3x33x33x33 .f32) (B : FVec Ideal S1x3x2048x2048 .f32) (ch : Fin 3) (h w : Fin 2048) :
    val_main_v228 (F := Ideal) A B (ix4 ch (0 : Fin 1) h w)
      = (cornerE A ch (hiW (pxE B 2 h w)) (hiW (pxE B 1 h w)) (loW (pxE B 0 h w))) * (Ideal.ofBits .f32 0x3F800000#32 - frE (pxE B 0 h w)) + (cornerE A ch (hiW (pxE B 2 h w)) (hiW (pxE B 1 h w)) (hiW (pxE B 0 h w))) * frE (pxE B 0 h w) := by
  have e := lerp_raw (val_main_v177 (F := Ideal) A B) (val_main_v197 (F := Ideal) A B) (val_main_v198 (F := Ideal) B) ch h w
  rw [corner177, corner197, frb0] at e
  exact e

/-- The blend along y of %207 and %214. -/
theorem blend235 (A : FVec Ideal S3x33x33x33 .f32) (B : FVec Ideal S1x3x2048x2048 .f32) (ch : Fin 3) (h w : Fin 2048) :
    val_main_v235 (F := Ideal) A B (ix4 ch (0 : Fin 1) h w)
      = ((cornerE A ch (loW (pxE B 2 h w)) (loW (pxE B 1 h w)) (loW (pxE B 0 h w))) * (Ideal.ofBits .f32 0x3F800000#32 - frE (pxE B 0 h w)) + (cornerE A ch (loW (pxE B 2 h w)) (loW (pxE B 1 h w)) (hiW (pxE B 0 h w))) * frE (pxE B 0 h w)) * (Ideal.ofBits .f32 0x3F800000#32 - frE (pxE B 1 h w)) + ((cornerE A ch (loW (pxE B 2 h w)) (hiW (pxE B 1 h w)) (loW (pxE B 0 h w))) * (Ideal.ofBits .f32 0x3F800000#32 - frE (pxE B 0 h w)) + (cornerE A ch (loW (pxE B 2 h w)) (hiW (pxE B 1 h w)) (hiW (pxE B 0 h w))) * frE (pxE B 0 h w)) * frE (pxE B 1 h w) := by
  have e := lerp_raw (val_main_v207 (F := Ideal) A B) (val_main_v214 (F := Ideal) A B) (val_main_v199 (F := Ideal) B) ch h w
  rw [blend207, blend214, frb1] at e
  exact e

/-- The blend along y of %221 and %228. -/
theorem blend242 (A : FVec Ideal S3x33x33x33 .f32) (B : FVec Ideal S1x3x2048x2048 .f32) (ch : Fin 3) (h w : Fin 2048) :
    val_main_v242 (F := Ideal) A B (ix4 ch (0 : Fin 1) h w)
      = ((cornerE A ch (hiW (pxE B 2 h w)) (loW (pxE B 1 h w)) (loW (pxE B 0 h w))) * (Ideal.ofBits .f32 0x3F800000#32 - frE (pxE B 0 h w)) + (cornerE A ch (hiW (pxE B 2 h w)) (loW (pxE B 1 h w)) (hiW (pxE B 0 h w))) * frE (pxE B 0 h w)) * (Ideal.ofBits .f32 0x3F800000#32 - frE (pxE B 1 h w)) + ((cornerE A ch (hiW (pxE B 2 h w)) (hiW (pxE B 1 h w)) (loW (pxE B 0 h w))) * (Ideal.ofBits .f32 0x3F800000#32 - frE (pxE B 0 h w)) + (cornerE A ch (hiW (pxE B 2 h w)) (hiW (pxE B 1 h w)) (hiW (pxE B 0 h w))) * frE (pxE B 0 h w)) * frE (pxE B 1 h w) := by
  have e := lerp_raw (val_main_v221 (F := Ideal) A B) (val_main_v228 (F := Ideal) A B) (val_main_v199 (F := Ideal) B) ch h w
  rw [blend221, blend228, frb1] at e
  exact e

/-- The blend along z: the result before the transposition. -/
theorem blend249 (A : FVec Ideal S3x33x33x33 .f32) (B : FVec Ideal S1x3x2048x2048 .f32) (ch : Fin 3) (h w : Fin 2048) :
    val_main_v249 (F := Ideal) A B (ix4 ch (0 : Fin 1) h w)
      = (((cornerE A ch (loW (pxE B 2 h w)) (loW (pxE B 1 h w)) (loW (pxE B 0 h w))) * (Ideal.ofBits .f32 0x3F800000#32 - frE (pxE B 0 h w)) + (cornerE A ch (loW (pxE B 2 h w)) (loW (pxE B 1 h w)) (hiW (pxE B 0 h w))) * frE (pxE B 0 h w)) * (Ideal.ofBits .f32 0x3F800000#32 - frE (pxE B 1 h w)) + ((cornerE A ch (loW (pxE B 2 h w)) (hiW (pxE B 1 h w)) (loW (pxE B 0 h w))) * (Ideal.ofBits .f32 0x3F800000#32 - frE (pxE B 0 h w)) + (cornerE A ch (loW (pxE B 2 h w)) (hiW (pxE B 1 h w)) (hiW (pxE B 0 h w))) * frE (pxE B 0 h w)) * frE (pxE B 1 h w)) * (Ideal.ofBits .f32 0x3F800000#32 - frE (pxE B 2 h w)) + (((cornerE A ch (hiW (pxE B 2 h w)) (loW (pxE B 1 h w)) (loW (pxE B 0 h w))) * (Ideal.ofBits .f32 0x3F800000#32 - frE (pxE B 0 h w)) + (cornerE A ch (hiW (pxE B 2 h w)) (loW (pxE B 1 h w)) (hiW (pxE B 0 h w))) * frE (pxE B 0 h w)) * (Ideal.ofBits .f32 0x3F800000#32 - frE (pxE B 1 h w)) + ((cornerE A ch (hiW (pxE B 2 h w)) (hiW (pxE B 1 h w)) (loW (pxE B 0 h w))) * (Ideal.ofBits .f32 0x3F800000#32 - frE (pxE B 0 h w)) + (cornerE A ch (hiW (pxE B 2 h w)) (hiW (pxE B 1 h w)) (hiW (pxE B 0 h w))) * frE (pxE B 0 h w)) * frE (pxE B 1 h w)) * frE (pxE B 2 h w) := by
  have e := lerp_raw (val_main_v235 (F := Ideal) A B) (val_main_v242 (F := Ideal) A B) (val_main_v200 (F := Ideal) B) ch h w
  rw [blend235, blend242, frb2] at e
  exact e

/-- The transposition [3, 1, 2048, 2048] → [1, 3, 2048, 2048] reads (0, ch, h, w) at (ch, 0, h, w). -/
theorem idx_v250 (ch : Fin 3) (h w : Fin 2048) : idx_main_v250 (ix4 (0 : Fin 1) ch h w) = (ix4 ch (0 : Fin 1) h w) := by
  funext a
  match a with
  | ⟨0, _⟩ => rfl
  | ⟨1, _⟩ => rfl
  | ⟨2, _⟩ => rfl
  | ⟨3, _⟩ => rfl

/-- THE REFERENCE AT ONE OUTPUT ELEMENT. -/
theorem ref_apply (A : FVec Ideal S3x33x33x33 .f32) (B : FVec Ideal S1x3x2048x2048 .f32) (ch : Fin 3) (h w : Fin 2048) :
    Cert.ReferenceIdeal.Read.val_main_v250 (F := Ideal) A B (ix4 (0 : Fin 1) ch h w) = RefSpec A B ch h w := by
  rw [val_main_v250_apply, idx_v250, blend249]
  rfl

/-- The second result: the table itself under a leading unit axis. -/
theorem ref_lut_apply (A : FVec Ideal S3x33x33x33 .f32) (i : S1x3x33x33x33.Idx) :
    Cert.ReferenceIdeal.Read.val_main_v251 (F := Ideal) A i = A (Cert.ReferenceIdeal.Read.idx_main_v251 i) :=
  val_main_v251_apply (F := Ideal) A i

end Cert.ReferenceIdeal.Hand

end
-- ==== Proof.HatSum.lean ====
import Mathlib.Algebra.Order.Floor.Semiring
import Mathlib.Algebra.Order.Archimedean.Real.Basic
import Mathlib.Algebra.BigOperators.Fin
import Mathlib.Logic.Equiv.Fin.Basic
import Mathlib.Tactic.Ring
import Mathlib.Tactic.Linarith
import Mathlib.Tactic.NormNum

/-!
# Trilinear interpolation: hat weights versus floor / fraction / two neighbours

On a grid of 33 nodes `0, 1, …, 32` the "hat" weight of node `i` at the point `x` is
`max 0 (1 - |i - x|)`.  For `0 ≤ x ≤ 32`, with `n = ⌊x⌋` and `t = x - n ∈ [0, 1)`, the only
nodes with non-zero weight are `n` (weight `1 - t`) and `n + 1` (weight `t`); when `n = 32`
we have `t = 0`, so clamping the upper neighbour to `32` changes nothing.  Hence a hat-weighted
sum over the 33 nodes is the linear interpolation between the two neighbouring entries, and the
three-axis version (a sum over a flattened `33 * 33` index followed by a sum over the last axis)
is the nested trilinear interpolation formula.
-/

namespace Cert.Trilinear

open Finset

/-- The hat (tent) weight of node `i` at the point `x`. -/
noncomputable def hat (i x : ℝ) : ℝ := max 0 (1 - |i - x|)

/-- The lower neighbour `⌊x⌋` is a valid node when `x ≤ 32`. -/
theorem lo_lt (x : ℝ) (h1 : x ≤ 32) : ⌊x⌋₊ < 33 := by
  have h : ⌊x⌋₊ ≤ 32 := Nat.floor_le_of_le (by exact_mod_cast h1)
  omega

/-- The clamped upper neighbour `min (⌊x⌋ + 1) 32` is a valid node. -/
theorem hi_lt (x : ℝ) : min (⌊x⌋₊ + 1) 32 < 33 := by
  omega

/-- The quotient of a flattened index `k < 33 * 33` by `33` is a valid node. -/
theorem div_lt (k : Fin 1089) : k.val / 33 < 33 := by
  have := k.isLt
  omega

/-- The remainder of a flattened index modulo `33` is a valid node. -/
theorem mod_lt (k : Fin 1089) : k.val % 33 < 33 := by
  omega

/-- At the lower neighbour `n ≤ x < n + 1` the hat weight is `1 - (x - n)`. -/
theorem hat_lo (x : ℝ) (n : ℕ) (hn1 : (n : ℝ) ≤ x) (hn2 : x < n + 1) :
    hat (n : ℝ) x = 1 - (x - n) := by
  unfold hat
  rw [abs_of_nonpos (by linarith), max_eq_right (by linarith)]
  ring

/-- At the upper neighbour `n + 1`, where `n ≤ x < n + 1`, the hat weight is `x - n`. -/
theorem hat_hi (x : ℝ) (n : ℕ) (hn1 : (n : ℝ) ≤ x) (hn2 : x < n + 1) :
    hat ((n + 1 : ℕ) : ℝ) x = x - n := by
  unfold hat
  push_cast
  rw [abs_of_nonneg (by linarith), max_eq_right (by linarith)]
  ring

/-- Away from the two neighbours the node is at distance at least `1` from `x`,
so the hat weight vanishes. -/
theorem hat_far (x : ℝ) (n i : ℕ) (hn1 : (n : ℝ) ≤ x) (hn2 : x < n + 1)
    (hi0 : i ≠ n) (hi1 : i ≠ n + 1) : hat (i : ℝ) x = 0 := by
  unfold hat
  apply max_eq_left
  rcases Nat.lt_or_ge i n with h | h
  · -- `i + 1 ≤ n ≤ x`, so `x - i ≥ 1`
    have h' : (i : ℝ) + 1 ≤ n := by exact_mod_cast h
    have := neg_le_abs ((i : ℝ) - x)
    linarith
  · -- `i ≥ n + 2 > x + 1`, so `i - x ≥ 1`
    have h2 : n + 2 ≤ i := by omega
    have h' : (n : ℝ) + 2 ≤ i := by exact_mod_cast h2
    have := le_abs_self ((i : ℝ) - x)
    linarith

/-- One axis, with the floor `n` and its two defining inequalities as hypotheses. -/
theorem hat_sum_aux (x : ℝ) (n : ℕ) (hn1 : (n : ℝ) ≤ x) (hn2 : x < n + 1) (h1 : x ≤ 32)
    (hlo : n < 33) (hhi : min (n + 1) 32 < 33) (f : Fin 33 → ℝ) :
    ∑ i : Fin 33, hat (i.val : ℝ) x * f i
      = f ⟨n, hlo⟩ * (1 - (x - (n : ℝ))) + f ⟨min (n + 1) 32, hhi⟩ * (x - (n : ℝ)) := by
  rcases Nat.lt_or_ge n 32 with hlt | hge
  · -- interior case: both neighbours `n` and `n + 1` are nodes
    have hn' : n + 1 < 33 := by omega
    have hmin : (⟨min (n + 1) 32, hhi⟩ : Fin 33) = ⟨n + 1, hn'⟩ :=
      Fin.ext (by simp only; omega)
    rw [hmin]
    rw [Finset.sum_eq_add (⟨n, hlo⟩ : Fin 33) ⟨n + 1, hn'⟩]
    · rw [hat_lo x n hn1 hn2, hat_hi x n hn1 hn2]
      ring
    · intro h
      have := congrArg Fin.val h
      simp only at this
      omega
    · intro c _ hc
      have hc0 : c.val ≠ n := fun h => hc.1 (Fin.ext h)
      have hc1 : c.val ≠ n + 1 := fun h => hc.2 (Fin.ext h)
      rw [hat_far x n c.val hn1 hn2 hc0 hc1, zero_mul]
    · intro h; exact absurd (Finset.mem_univ _) h
    · intro h; exact absurd (Finset.mem_univ _) h
  · -- boundary case: `n = 32`, hence `x = 32` and the fractional part is `0`
    have hn : n = 32 := by omega
    subst hn
    have hx : x = 32 := le_antisymm h1 (by exact_mod_cast hn1)
    have hmin : (⟨min (32 + 1) 32, hhi⟩ : Fin 33) = ⟨32, hlo⟩ := Fin.ext (by simp only; omega)
    rw [hmin]
    rw [Finset.sum_eq_single (⟨32, hlo⟩ : Fin 33)]
    · rw [hat_lo x 32 hn1 hn2, hx]
      push_cast
      ring
    · intro c _ hc
      have hc0 : c.val ≠ 32 := fun h => hc (Fin.ext h)
      have hc1 : c.val ≠ 32 + 1 := by have := c.isLt; omega
      rw [hat_far x 32 c.val hn1 hn2 hc0 hc1, zero_mul]
    · intro h; exact absurd (Finset.mem_univ _) h

/-- One axis: the hat-weighted sum over the 33 nodes is the linear interpolation between the
entries at `⌊x⌋` and at the clamped upper neighbour, with fractional part `x - ⌊x⌋`. -/
theorem hat_sum (x : ℝ) (h0 : 0 ≤ x) (h1 : x ≤ 32) (f : Fin 33 → ℝ) :
    ∑ i : Fin 33, hat (i.val : ℝ) x * f i
      = f ⟨⌊x⌋₊, lo_lt x h1⟩ * (1 - (x - (⌊x⌋₊ : ℝ)))
        + f ⟨min (⌊x⌋₊ + 1) 32, hi_lt x⟩ * (x - (⌊x⌋₊ : ℝ)) :=
  hat_sum_aux x ⌊x⌋₊ (Nat.floor_le h0) (Nat.lt_floor_add_one x) h1 (lo_lt x h1) (hi_lt x) f

/-- A sum over the flattened index `k = 33 * a + b` is the double sum over `(a, b)`. -/
theorem sum_flat (G : Fin 33 → Fin 33 → ℝ) :
    ∑ k : Fin 1089, G ⟨k.val / 33, div_lt k⟩ ⟨k.val % 33, mod_lt k⟩
      = ∑ a : Fin 33, ∑ b : Fin 33, G a b := by
  rw [← Fintype.sum_prod_type']
  symm
  refine Fintype.sum_equiv (finProdFinEquiv : Fin 33 × Fin 33 ≃ Fin (33 * 33)) _ _ ?_
  rintro ⟨a, b⟩
  have ha := a.isLt
  have hb := b.isLt
  have e1 : (⟨(finProdFinEquiv (a, b) : Fin (33 * 33)).val / 33, div_lt _⟩ : Fin 33) = a :=
    Fin.ext (by simp only [finProdFinEquiv_apply_val]; omega)
  have e2 : (⟨(finProdFinEquiv (a, b) : Fin (33 * 33)).val % 33, mod_lt _⟩ : Fin 33) = b :=
    Fin.ext (by simp only [finProdFinEquiv_apply_val]; omega)
  show G a b = G ⟨(finProdFinEquiv (a, b) : Fin (33 * 33)).val / 33, div_lt _⟩
    ⟨(finProdFinEquiv (a, b) : Fin (33 * 33)).val % 33, mod_lt _⟩
  rw [e1, e2]

/-- Three axes: the flattened hat-weighted sum is the nested trilinear interpolation formula. -/
theorem trilinear (L : Fin 33 → Fin 33 → Fin 33 → ℝ) (x y z : ℝ)
    (hx0 : 0 ≤ x) (hx1 : x ≤ 32) (hy0 : 0 ≤ y) (hy1 : y ≤ 32) (hz0 : 0 ≤ z) (hz1 : z ≤ 32) :
    ∑ i : Fin 33,
        (∑ k : Fin 1089,
          (hat ((k.val / 33 : ℕ) : ℝ) z * hat ((k.val % 33 : ℕ) : ℝ) y)
            * L ⟨k.val / 33, div_lt k⟩ ⟨k.val % 33, mod_lt k⟩ i) * hat (i.val : ℝ) x
      = ((L ⟨⌊z⌋₊, lo_lt z hz1⟩ ⟨⌊y⌋₊, lo_lt y hy1⟩ ⟨⌊x⌋₊, lo_lt x hx1⟩ * (1 - (x - (⌊x⌋₊ : ℝ)))
            + L ⟨⌊z⌋₊, lo_lt z hz1⟩ ⟨⌊y⌋₊, lo_lt y hy1⟩ ⟨min (⌊x⌋₊ + 1) 32, hi_lt x⟩
              * (x - (⌊x⌋₊ : ℝ))) * (1 - (y - (⌊y⌋₊ : ℝ)))
          + (L ⟨⌊z⌋₊, lo_lt z hz1⟩ ⟨min (⌊y⌋₊ + 1) 32, hi_lt y⟩ ⟨⌊x⌋₊, lo_lt x hx1⟩
              * (1 - (x - (⌊x⌋₊ : ℝ)))
            + L ⟨⌊z⌋₊, lo_lt z hz1⟩ ⟨min (⌊y⌋₊ + 1) 32, hi_lt y⟩ ⟨min (⌊x⌋₊ + 1) 32, hi_lt x⟩
              * (x - (⌊x⌋₊ : ℝ))) * (y - (⌊y⌋₊ : ℝ))) * (1 - (z - (⌊z⌋₊ : ℝ)))
        + ((L ⟨min (⌊z⌋₊ + 1) 32, hi_lt z⟩ ⟨⌊y⌋₊, lo_lt y hy1⟩ ⟨⌊x⌋₊, lo_lt x hx1⟩
              * (1 - (x - (⌊x⌋₊ : ℝ)))
            + L ⟨min (⌊z⌋₊ + 1) 32, hi_lt z⟩ ⟨⌊y⌋₊, lo_lt y hy1⟩ ⟨min (⌊x⌋₊ + 1) 32, hi_lt x⟩
              * (x - (⌊x⌋₊ : ℝ))) * (1 - (y - (⌊y⌋₊ : ℝ)))
          + (L ⟨min (⌊z⌋₊ + 1) 32, hi_lt z⟩ ⟨min (⌊y⌋₊ + 1) 32, hi_lt y⟩ ⟨⌊x⌋₊, lo_lt x hx1⟩
              * (1 - (x - (⌊x⌋₊ : ℝ)))
            + L ⟨min (⌊z⌋₊ + 1) 32, hi_lt z⟩ ⟨min (⌊y⌋₊ + 1) 32, hi_lt y⟩
                ⟨min (⌊x⌋₊ + 1) 32, hi_lt x⟩
              * (x - (⌊x⌋₊ : ℝ))) * (y - (⌊y⌋₊ : ℝ))) * (z - (⌊z⌋₊ : ℝ)) := by
  -- un-flatten the `k`-sum into a double sum over the `z`- and `y`-nodes
  have hflat : ∀ i : Fin 33,
      (∑ k : Fin 1089,
          (hat ((k.val / 33 : ℕ) : ℝ) z * hat ((k.val % 33 : ℕ) : ℝ) y)
            * L ⟨k.val / 33, div_lt k⟩ ⟨k.val % 33, mod_lt k⟩ i)
        = ∑ a : Fin 33, ∑ b : Fin 33, (hat (a.val : ℝ) z * hat (b.val : ℝ) y) * L a b i :=
    fun i => sum_flat (fun a b => (hat (a.val : ℝ) z * hat (b.val : ℝ) y) * L a b i)
  -- regroup as three nested one-axis sums
  have hnest :
      ∑ i : Fin 33,
        (∑ a : Fin 33, ∑ b : Fin 33, (hat (a.val : ℝ) z * hat (b.val : ℝ) y) * L a b i)
          * hat (i.val : ℝ) x
        = ∑ a : Fin 33, hat (a.val : ℝ) z *
            ∑ b : Fin 33, hat (b.val : ℝ) y * ∑ i : Fin 33, hat (i.val : ℝ) x * L a b i := by
    simp only [Finset.sum_mul, Finset.mul_sum]
    rw [Finset.sum_comm]
    refine Finset.sum_congr rfl (fun a _ => ?_)
    rw [Finset.sum_comm]
    refine Finset.sum_congr rfl (fun b _ => Finset.sum_congr rfl (fun i _ => ?_))
    ring
  simp only [hflat]
  rw [hnest]
  -- interpolate along `x`, then `y`, then `z`
  have hX : ∀ a b : Fin 33, ∑ i : Fin 33, hat (i.val : ℝ) x * L a b i
      = L a b ⟨⌊x⌋₊, lo_lt x hx1⟩ * (1 - (x - (⌊x⌋₊ : ℝ)))
        + L a b ⟨min (⌊x⌋₊ + 1) 32, hi_lt x⟩ * (x - (⌊x⌋₊ : ℝ)) :=
    fun a b => hat_sum x hx0 hx1 (L a b)
  simp only [hX]
  have hY := fun a : Fin 33 => hat_sum y hy0 hy1 (fun b =>
      L a b ⟨⌊x⌋₊, lo_lt x hx1⟩ * (1 - (x - (⌊x⌋₊ : ℝ)))
        + L a b ⟨min (⌊x⌋₊ + 1) 32, hi_lt x⟩ * (x - (⌊x⌋₊ : ℝ)))
  simp only [hY]
  exact hat_sum z hz0 hz1 _

end Cert.Trilinear
-- ==== Proof.Scalars.lean ====
import Idealize.ShloMosaic.PureOps.Ideal
import proofs.«105660_j3358664425833_2_alg».proof.Proof.HatSum

/-!
# Scalars: from extended-real arithmetic to the real-number identities

The two programs are read in the extended reals.  On finite inputs every scalar they compute
(the float literals, the clipped grid coordinate, the hat weight, the floor and fractional part,
the integer index, the weighted sums and the eight-corner blend) is the coercion of the
corresponding real-number expression.  This module proves those coercion facts, so that the
real-number trilinear identity applies.
-/

noncomputable section

namespace Cert.Trilinear

open Idealize.ShloMosaic

/-! ### The float literals -/

/-- The pattern `0x00000000` denotes `0`. -/
theorem ofBits_zero : Ideal.ofBits .f32 0x00000000#32 = (0 : EReal) := by
  simp [Ideal.ofBits, Ideal.ieee]

/-- The pattern `0x3F000000` (exponent field `126`, zero fraction) denotes `2⁻¹ = 1/2`. -/
theorem ofBits_half : Ideal.ofBits .f32 0x3F000000#32 = (((1/2 : ℝ)) : EReal) := by
  simp [Ideal.ofBits, Ideal.ieee, -EReal.coe_mul]; norm_num

/-- The pattern `0x3F800000` (exponent field `127`, zero fraction) denotes `2⁰ = 1`. -/
theorem ofBits_one : Ideal.ofBits .f32 0x3F800000#32 = (1 : EReal) := by
  simp [Ideal.ofBits, Ideal.ieee, -EReal.coe_mul]; norm_num

/-- The pattern `0x40000000` (exponent field `128`, zero fraction) denotes `2¹ = 2`. -/
theorem ofBits_two : Ideal.ofBits .f32 0x40000000#32 = ((2 : ℝ) : EReal) := by
  simp [Ideal.ofBits, Ideal.ieee, -EReal.coe_mul]; norm_num

/-- The pattern `0x42000000` (exponent field `132`, zero fraction) denotes `2⁵ = 32`. -/
theorem ofBits_32 : Ideal.ofBits .f32 0x42000000#32 = ((32 : ℝ) : EReal) := by
  simp [Ideal.ofBits, Ideal.ieee, -EReal.coe_mul]; norm_num

/-! ### Coercion commutes with `max` and `min` -/

/-- The coercion `ℝ → EReal` is monotone, hence commutes with `max`. -/
theorem coe_max' (a b : ℝ) : ((max a b : ℝ) : EReal) = max ((a : ℝ) : EReal) ((b : ℝ) : EReal) :=
  EReal.coe_strictMono.monotone.map_max

/-- The coercion `ℝ → EReal` is monotone, hence commutes with `min`. -/
theorem coe_min' (a b : ℝ) : ((min a b : ℝ) : EReal) = min ((a : ℝ) : EReal) ((b : ℝ) : EReal) :=
  EReal.coe_strictMono.monotone.map_min

/-! ### The clipped coordinate -/

/-- The grid coordinate of an input `r`: scale by `32` and clip to `[0, 32]`. -/
def coord (r : ℝ) : ℝ := min 32 (max 0 (r * 32))

theorem coord_nonneg (r : ℝ) : 0 ≤ coord r :=
  le_min (by norm_num) (le_max_left _ _)

theorem coord_le (r : ℝ) : coord r ≤ 32 :=
  min_le_left _ _

/-- The first spelling: clip `r * 32` directly. -/
theorem kcoord_coe (r : ℝ) :
    min ((32 : ℝ) : EReal) (max (0 : EReal) (((r : ℝ) : EReal) * ((32 : ℝ) : EReal)))
      = ((coord r : ℝ) : EReal) := by
  rw [coord, coe_min', coe_max', EReal.coe_mul, EReal.coe_zero]

/-- The second spelling: `((r - 1/2) * 2 + 1) * (1/2) * 32`, which over the reals is `r * 32`. -/
theorem rcoord_coe (r : ℝ) :
    min ((32 : ℝ) : EReal) (max (0 : EReal)
      ((((((r : ℝ) : EReal) - (((1/2 : ℝ)) : EReal)) * ((2 : ℝ) : EReal) + (1 : EReal))
        * (((1/2 : ℝ)) : EReal)) * ((32 : ℝ) : EReal)))
      = ((coord r : ℝ) : EReal) := by
  have h : (((((r : ℝ) : EReal) - (((1/2 : ℝ)) : EReal)) * ((2 : ℝ) : EReal) + (1 : EReal))
        * (((1/2 : ℝ)) : EReal)) * ((32 : ℝ) : EReal) = ((r * 32 : ℝ) : EReal) := by
    rw [← EReal.coe_sub, ← EReal.coe_mul, ← EReal.coe_one, ← EReal.coe_add, ← EReal.coe_mul,
      ← EReal.coe_mul]
    congr 1
    ring
  rw [h, coord, coe_min', coe_max', EReal.coe_zero]

/-! ### The hat weight -/

/-- The hat weight with the absolute value spelt `max y (-y)`. -/
theorem hat_coe (i x : ℝ) :
    max (0 : EReal) ((1 : EReal)
        - max (((i : ℝ) : EReal) - ((x : ℝ) : EReal)) (-(((i : ℝ) : EReal) - ((x : ℝ) : EReal))))
      = ((hat i x : ℝ) : EReal) := by
  rw [hat, abs_eq_max_neg, coe_max', EReal.coe_sub, coe_max', EReal.coe_neg, EReal.coe_sub,
    EReal.coe_zero, EReal.coe_one]

/-! ### Floor, fraction and the integer conversion -/

/-- On a non-negative real the integer floor is the natural floor. -/
theorem floor_coe (X : ℝ) (h0 : 0 ≤ X) :
    Ideal.liftRound Int.floor ((X : ℝ) : EReal) = (((⌊X⌋₊ : ℕ) : ℝ) : EReal) := by
  rw [Ideal.liftRound_coe, natCast_floor_eq_intCast_floor h0]

theorem frac_coe (X : ℝ) (h0 : 0 ≤ X) :
    ((X : ℝ) : EReal) - Ideal.liftRound Int.floor ((X : ℝ) : EReal)
      = ((X - ((⌊X⌋₊ : ℕ) : ℝ) : ℝ) : EReal) := by
  rw [floor_coe X h0, EReal.coe_sub]

/-- For `0 ≤ X ≤ 32` the floor is a natural number at most `32`, far inside the signed 32-bit
range, so the clamped conversion returns it unchanged. -/
theorem fptosi_floor (X : ℝ) (h0 : 0 ≤ X) (h1 : X ≤ 32) :
    Ideal.fptosi 32 (Ideal.liftRound Int.floor ((X : ℝ) : EReal)) = BitVec.ofNat 32 ⌊X⌋₊ := by
  have hn : ⌊X⌋₊ < 33 := lo_lt X h1
  rw [floor_coe X h0, Ideal.fptosi, Ideal.toIntClamped_coe,
    if_pos (Nat.cast_nonneg (α := ℝ) ⌊X⌋₊), Int.floor_natCast]
  have hc : max (-((2 ^ (32 - 1) : ℕ) : ℤ)) (min (((2 ^ (32 - 1) : ℕ) : ℤ) - 1) ((⌊X⌋₊ : ℕ) : ℤ))
      = ((⌊X⌋₊ : ℕ) : ℤ) := by
    omega
  rw [hc, BitVec.ofInt_natCast]

theorem one_sub_coe (t : ℝ) : (1 : EReal) - ((t : ℝ) : EReal) = ((1 - t : ℝ) : EReal) := by
  rw [EReal.coe_sub, EReal.coe_one]

/-! ### Sums -/

/-- Coercion commutes with finite sums (induction on the index set). -/
theorem sum_coe_finset {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_coe {ι : Type} [Fintype ι] (f : ι → ℝ) :
    ∑ i, ((f i : ℝ) : EReal) = ((∑ i, f i : ℝ) : EReal) :=
  sum_coe_finset Finset.univ f

/-- The weighted double sum of finite terms is the coercion of the real double sum. -/
theorem ksum_coe (a b : Fin 1089 → ℝ) (l : Fin 1089 → Fin 33 → ℝ) (h : Fin 33 → ℝ) :
    ∑ i : Fin 33, (∑ k : Fin 1089,
        (((a k : ℝ) : EReal) * ((b k : ℝ) : EReal)) * ((l k i : ℝ) : EReal)) * ((h i : ℝ) : EReal)
      = ((∑ i : Fin 33, (∑ k : Fin 1089, (a k * b k) * l k i) * h i : ℝ) : EReal) := by
  simp only [← EReal.coe_mul, sum_coe]

/-! ### The eight-corner blend -/

theorem blend_coe (c000 c001 c010 c011 c100 c101 c110 c111 fx fy fz : ℝ) :
    ((((c000 : ℝ) : EReal) * ((1 : EReal) - ((fx : ℝ) : EReal))
          + ((c001 : ℝ) : EReal) * ((fx : ℝ) : EReal)) * ((1 : EReal) - ((fy : ℝ) : EReal))
        + (((c010 : ℝ) : EReal) * ((1 : EReal) - ((fx : ℝ) : EReal))
          + ((c011 : ℝ) : EReal) * ((fx : ℝ) : EReal)) * ((fy : ℝ) : EReal))
        * ((1 : EReal) - ((fz : ℝ) : EReal))
      + ((((c100 : ℝ) : EReal) * ((1 : EReal) - ((fx : ℝ) : EReal))
          + ((c101 : ℝ) : EReal) * ((fx : ℝ) : EReal)) * ((1 : EReal) - ((fy : ℝ) : EReal))
        + (((c110 : ℝ) : EReal) * ((1 : EReal) - ((fx : ℝ) : EReal))
          + ((c111 : ℝ) : EReal) * ((fx : ℝ) : EReal)) * ((fy : ℝ) : EReal))
        * ((fz : ℝ) : EReal)
      = (((((c000 * (1 - fx) + c001 * fx) * (1 - fy) + (c010 * (1 - fx) + c011 * fx) * fy)
            * (1 - fz)
          + ((c100 * (1 - fx) + c101 * fx) * (1 - fy) + (c110 * (1 - fx) + c111 * fx) * fy)
            * fz : ℝ)) : EReal) := by
  simp only [one_sub_coe, ← EReal.coe_mul, ← EReal.coe_add]

end Cert.Trilinear

end
-- ==== Proof.Bridge.lean ====
/-
  On finite inputs the kernel's element and the reference's element are the same real number.

  Write r0, r1, r2 for a pixel's three inputs and X, Y, Z for their grid coordinates (each input scaled by 32 and
  clipped to [0, 32]).  The kernel's element is a hat-weighted sum of the table over all 33 · 33 · 33 nodes; the
  reference's is the blend of the eight table entries at the floors of X, Y, Z and their upper neighbours, with the
  fractional parts as weights.  Both are the coercion of one real number, the trilinear interpolation of the table at
  (X, Y, Z): the kernel's by the hat-sum identity, the reference's term by term.
-/
import proofs.«105660_j3358664425833_2_alg».proof.Proof.KernelSpec
import proofs.«105660_j3358664425833_2_alg».proof.Proof.RefSpec
import proofs.«105660_j3358664425833_2_alg».proof.Proof.Scalars

noncomputable section

namespace Cert.Bridge

open Idealize.ShloMosaic Idealize.ShloMosaic.ValueIdx Cert.Trilinear Cert.KernelIdeal.Pay Cert.ReferenceIdeal.Hand

/-! ### The interpolation both sides compute -/

/-- Trilinear interpolation of a table `T` (indexed z, y, x) at a point of the cube [0, 32]³: along each axis the
    floor, its upper neighbour capped at 32, and the fractional part; blended along x, then y, then z. -/
def interp (T : Fin 33 → Fin 33 → Fin 33 → ℝ) (x y z : ℝ) (hx1 : x ≤ 32) (hy1 : y ≤ 32) (hz1 : z ≤ 32) : ℝ :=
  ((T ⟨⌊z⌋₊, lo_lt z hz1⟩ ⟨⌊y⌋₊, lo_lt y hy1⟩ ⟨⌊x⌋₊, lo_lt x hx1⟩ * (1 - (x - (⌊x⌋₊ : ℝ))) + T ⟨⌊z⌋₊, lo_lt z hz1⟩ ⟨⌊y⌋₊, lo_lt y hy1⟩ ⟨min (⌊x⌋₊ + 1) 32, hi_lt x⟩ * (x - (⌊x⌋₊ : ℝ))) * (1 - (y - (⌊y⌋₊ : ℝ)))
        + (T ⟨⌊z⌋₊, lo_lt z hz1⟩ ⟨min (⌊y⌋₊ + 1) 32, hi_lt y⟩ ⟨⌊x⌋₊, lo_lt x hx1⟩ * (1 - (x - (⌊x⌋₊ : ℝ))) + T ⟨⌊z⌋₊, lo_lt z hz1⟩ ⟨min (⌊y⌋₊ + 1) 32, hi_lt y⟩ ⟨min (⌊x⌋₊ + 1) 32, hi_lt x⟩ * (x - (⌊x⌋₊ : ℝ))) * (y - (⌊y⌋₊ : ℝ))) * (1 - (z - (⌊z⌋₊ : ℝ)))
      + ((T ⟨min (⌊z⌋₊ + 1) 32, hi_lt z⟩ ⟨⌊y⌋₊, lo_lt y hy1⟩ ⟨⌊x⌋₊, lo_lt x hx1⟩ * (1 - (x - (⌊x⌋₊ : ℝ))) + T ⟨min (⌊z⌋₊ + 1) 32, hi_lt z⟩ ⟨⌊y⌋₊, lo_lt y hy1⟩ ⟨min (⌊x⌋₊ + 1) 32, hi_lt x⟩ * (x - (⌊x⌋₊ : ℝ))) * (1 - (y - (⌊y⌋₊ : ℝ)))
        + (T ⟨min (⌊z⌋₊ + 1) 32, hi_lt z⟩ ⟨min (⌊y⌋₊ + 1) 32, hi_lt y⟩ ⟨⌊x⌋₊, lo_lt x hx1⟩ * (1 - (x - (⌊x⌋₊ : ℝ))) + T ⟨min (⌊z⌋₊ + 1) 32, hi_lt z⟩ ⟨min (⌊y⌋₊ + 1) 32, hi_lt y⟩ ⟨min (⌊x⌋₊ + 1) 32, hi_lt x⟩ * (x - (⌊x⌋₊ : ℝ))) * (y - (⌊y⌋₊ : ℝ))) * (z - (⌊z⌋₊ : ℝ))

/-! ### The kernel's side -/

/-- The kernel's clipped coordinate of a finite input. -/
theorem kc_coe (r : ℝ) : kc ((r : ℝ) : EReal) = ((coord r : ℝ) : EReal) := by
  unfold kc
  rw [ofBits_32, ofBits_zero]
  exact kcoord_coe r

/-- The kernel's hat weight at a finite coordinate. -/
theorem hatE_coe (i x : ℝ) : hatE i ((x : ℝ) : EReal) = ((hat i x : ℝ) : EReal) := by
  unfold hatE
  rw [ofBits_zero, ofBits_one]
  exact hat_coe i x

/-- The kernel's element on finite inputs: the hat-weighted sum over all nodes is the interpolation at the three
    coordinates. -/
theorem kernel_side (T : Fin 33 → Fin 33 → Fin 33 → ℝ) (r0 r1 r2 : ℝ) :
    (∑ xi : Fin 33,
      (∑ k : Fin 1089,
        (hatE ((k.val / 33 : ℕ) : ℝ) (kc ((r2 : ℝ) : EReal)) * hatE ((k.val % 33 : ℕ) : ℝ) (kc ((r1 : ℝ) : EReal)))
          * ((T ⟨k.val / 33, div_lt k⟩ ⟨k.val % 33, mod_lt k⟩ xi : ℝ) : EReal))
        * hatE ((xi.val : ℕ) : ℝ) (kc ((r0 : ℝ) : EReal)))
      = ((interp T (coord r0) (coord r1) (coord r2) (coord_le r0) (coord_le r1) (coord_le r2) : ℝ) : EReal) := by
  simp only [kc_coe, hatE_coe]
  refine (ksum_coe (fun k => hat ((k.val / 33 : ℕ) : ℝ) (coord r2)) (fun k => hat ((k.val % 33 : ℕ) : ℝ) (coord r1))
    (fun k xi => T ⟨k.val / 33, div_lt k⟩ ⟨k.val % 33, mod_lt k⟩ xi) (fun xi => hat ((xi.val : ℕ) : ℝ) (coord r0))).trans ?_
  exact congrArg (fun t : ℝ => (t : EReal))
    (trilinear T (coord r0) (coord r1) (coord r2) (coord_nonneg r0) (coord_le r0) (coord_nonneg r1) (coord_le r1)
      (coord_nonneg r2) (coord_le r2))

/-! ### The reference's side -/

/-- The reference's coordinate of a finite input is the same clipped coordinate. -/
theorem pixE_coe (r : ℝ) : pixE ((r : ℝ) : EReal) = ((coord r : ℝ) : EReal) := by
  unfold pixE
  rw [ofBits_32, ofBits_zero, ofBits_half, ofBits_two, ofBits_one]
  exact rcoord_coe r

/-- The fraction of a finite non-negative coordinate. -/
theorem frE_coe (X : ℝ) (h0 : 0 ≤ X) : frE ((X : ℝ) : EReal) = ((X - ((⌊X⌋₊ : ℕ) : ℝ) : ℝ) : EReal) := by
  unfold frE flE
  exact frac_coe X h0

/-- The lower node of a coordinate in [0, 32], as a word. -/
theorem loW_coe (X : ℝ) (h0 : 0 ≤ X) (h1 : X ≤ 32) : loW ((X : ℝ) : EReal) = BitVec.ofNat 32 ⌊X⌋₊ := by
  unfold loW flE
  exact fptosi_floor X h0 h1

/-- A node number at most 32, as a word, is its own table position: it is not negative, so nothing wraps, and it is
    inside [0, 32], so nothing clamps (checked on the 33 cases). -/
theorem giN_ofNat : ∀ n : Fin 33, giN (BitVec.ofNat 32 n.val) = n.val := by decide

/-- The upper neighbour of a node number at most 32, as a word: the number plus one, capped at 32 (checked on the 33
    cases). -/
theorem giN_succ_min : ∀ n : Fin 33,
    giN (IntOp.minsi (IntOp.addi (BitVec.ofNat 32 n.val) 1#32) 32#32) = min (n.val + 1) 32 := by decide

/-- The table position of the lower node is the floor. -/
theorem node_lo (X : ℝ) (h0 : 0 ≤ X) (h1 : X ≤ 32) :
    (⟨giN (loW ((X : ℝ) : EReal)), giN_lt _⟩ : Fin 33) = ⟨⌊X⌋₊, lo_lt X h1⟩ := by
  apply Fin.ext
  show giN (loW ((X : ℝ) : EReal)) = ⌊X⌋₊
  rw [loW_coe X h0 h1]
  exact giN_ofNat ⟨⌊X⌋₊, lo_lt X h1⟩

/-- The table position of the upper node is the floor plus one, capped at 32. -/
theorem node_hi (X : ℝ) (h0 : 0 ≤ X) (h1 : X ≤ 32) :
    (⟨giN (hiW ((X : ℝ) : EReal)), giN_lt _⟩ : Fin 33) = ⟨min (⌊X⌋₊ + 1) 32, hi_lt X⟩ := by
  apply Fin.ext
  show giN (hiW ((X : ℝ) : EReal)) = min (⌊X⌋₊ + 1) 32
  unfold hiW
  rw [loW_coe X h0 h1]
  exact giN_succ_min ⟨⌊X⌋₊, lo_lt X h1⟩

/-- The reference's element on finite inputs: the eight-corner blend is the interpolation at the three coordinates. -/
theorem ref_side (L : (⟨4, ![3, 33, 33, 33]⟩ : Shape).Idx → ℝ) (Vr : (⟨4, ![1, 3, 2048, 2048]⟩ : Shape).Idx → ℝ)
    (ch : Fin 3) (h w : Fin 2048) :
    RefSpec (fun i => ((L i : ℝ) : EReal)) (fun i => ((Vr i : ℝ) : EReal)) ch h w
      = ((interp (fun z y x => L (ix4 ch z y x))
          (coord (Vr (ix4 (0 : Fin 1) (0 : Fin 3) h w))) (coord (Vr (ix4 (0 : Fin 1) (1 : Fin 3) h w)))
          (coord (Vr (ix4 (0 : Fin 1) (2 : Fin 3) h w)))
          (coord_le _) (coord_le _) (coord_le _) : ℝ) : EReal) := by
  unfold RefSpec cornerE pxE
  simp only [pixE_coe]
  rw [node_lo _ (coord_nonneg (Vr (ix4 (0 : Fin 1) (0 : Fin 3) h w))) (coord_le _),
    node_hi _ (coord_nonneg (Vr (ix4 (0 : Fin 1) (0 : Fin 3) h w))) (coord_le _),
    node_lo _ (coord_nonneg (Vr (ix4 (0 : Fin 1) (1 : Fin 3) h w))) (coord_le _),
    node_hi _ (coord_nonneg (Vr (ix4 (0 : Fin 1) (1 : Fin 3) h w))) (coord_le _),
    node_lo _ (coord_nonneg (Vr (ix4 (0 : Fin 1) (2 : Fin 3) h w))) (coord_le _),
    node_hi _ (coord_nonneg (Vr (ix4 (0 : Fin 1) (2 : Fin 3) h w))) (coord_le _),
    frE_coe _ (coord_nonneg (Vr (ix4 (0 : Fin 1) (0 : Fin 3) h w))),
    frE_coe _ (coord_nonneg (Vr (ix4 (0 : Fin 1) (1 : Fin 3) h w))),
    frE_coe _ (coord_nonneg (Vr (ix4 (0 : Fin 1) (2 : Fin 3) h w)))]
  unfold blendE
  rw [ofBits_one]
  exact blend_coe _ _ _ _ _ _ _ _ _ _ _

/-! ### The bridge -/

/-- On finite inputs the kernel's element equals the reference's element. -/
theorem bridge (L : (⟨4, ![3, 33, 33, 33]⟩ : Shape).Idx → ℝ) (Vr : (⟨4, ![1, 3, 2048, 2048]⟩ : Shape).Idx → ℝ)
    (ch : Fin 3) (h w : Fin 2048) :
    (∑ xi : Fin 33,
      (∑ k : Fin 1089,
        (hatE ((k.val / 33 : ℕ) : ℝ) (kc ((Vr (ix4 (0 : Fin 1) (2 : Fin 3) h w) : ℝ) : EReal))
            * hatE ((k.val % 33 : ℕ) : ℝ) (kc ((Vr (ix4 (0 : Fin 1) (1 : Fin 3) h w) : ℝ) : EReal)))
          * ((L (ix4 ch ⟨k.val / 33, Cert.Trilinear.div_lt k⟩ ⟨k.val % 33, Cert.Trilinear.mod_lt k⟩ xi) : ℝ) : EReal))
        * hatE ((xi.val : ℕ) : ℝ) (kc ((Vr (ix4 (0 : Fin 1) (0 : Fin 3) h w) : ℝ) : EReal)))
      = RefSpec (fun i => ((L i : ℝ) : EReal)) (fun i => ((Vr i : ℝ) : EReal)) ch h w :=
  (kernel_side (fun z y x => L (ix4 ch z y x)) (Vr (ix4 (0 : Fin 1) (0 : Fin 3) h w))
    (Vr (ix4 (0 : Fin 1) (1 : Fin 3) h w)) (Vr (ix4 (0 : Fin 1) (2 : Fin 3) h w))).trans (ref_side L Vr ch h w).symm

end Cert.Bridge

end
-- ==== Proof.Finite.lean ====
/-
  The precondition "every float input is finite", read back as a statement about the entries.

  The printed precondition computes, for each of the two argument arrays x, the conjunction over all entries of
  |x| < +inf (the comparison as a one-bit word, reduced by `and` over all four axes from the initial value 1), and
  then the `and` of the two results; the claim assumes that this scalar is 1. Over the extended reals |x| is
  max x (-x), the word 0x7F800000 denotes ⊤, and the comparison is the strict order. So the result being 1 says that
  every entry x of both arrays satisfies max x (-x) < ⊤, which excludes x = ⊤ and x = ⊥ (whose negation is ⊤): every
  entry is a real number.
-/
import proofs.«105660_j3358664425833_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs Cert.Pre_finite_inputs.Gen

/-- The scalar shape has exactly one index. -/
instance : Subsingleton S_.Idx := ⟨fun a b => funext fun d => d.elim0⟩

/-- An extended real whose absolute value max x (-x) is strictly below ⊤ is a real number: ⊤ fails at once, and ⊥ fails
    because -⊥ = ⊤. -/
theorem real_of_abs_lt_top (x : EReal) (hx : max x (-x) < ⊤) : ∃ r : ℝ, x = ((r : ℝ) : EReal) := by
  induction x using EReal.rec with
  | bot => simp at hx
  | coe r => exact ⟨r, rfl⟩
  | top => simp at hx

/-- The single-precision word with all exponent bits set, sign clear and fraction zero denotes +∞. -/
theorem inf_f32 : Ideal.ofBits .f32 0x7F800000#32 = (⊤ : EReal) := by
  simp [Ideal.ofBits, Ideal.ieee]

/-- The ordered less-than comparison on extended reals yields the word 1 only when the strict inequality holds. -/
theorem lt_of_cmp_olt (x y : EReal) (hc : Ideal.cmp .olt x y = 1#1) : x < y := by
  by_contra hn
  have hd : Ideal.cmp .olt x y = 0#1 := by
    show BitVec.ofBool (decide (x < y)) = 0#1
    rw [decide_eq_false hn]; rfl
  rw [hd] at hc
  exact absurd hc (by decide)

/-- If the finiteness precondition evaluates to 1 on the two argument arrays, every entry of both is a real number:
    the final `and` gives both conjunctions, each conjunction over all entries gives the comparison at every entry, the
    comparison gives max x (-x) < ⊤, and that makes x real. -/
theorem real_of_pre (a0 : FVec Ideal Cert.Pre_finite_inputs.S3x33x33x33 .f32) (a1 : FVec Ideal Cert.Pre_finite_inputs.S1x3x2048x2048 .f32)
    (h : Cert.Pre_finite_inputs.fn (F := Ideal) a0 a1 = fun _ => 1#1) :
    (∀ i, ∃ r : ℝ, a0 i = ((r : ℝ) : EReal)) ∧ (∀ i, ∃ r : ℝ, a1 i = ((r : ℝ) : EReal)) := by
  have h0 := congrFun h ix0
  dsimp only [fn] at h0
  obtain ⟨e0, e1⟩ := IntOp.andi_eq_one.1 h0
  refine ⟨fun i => ?_, fun i => ?_⟩
  · have p := Host.reduce_andi_all _ _ _ _ _ e0 i
    have q : max (a0 i) (-(a0 i)) < Ideal.ofBits .f32 0x7F800000#32 := lt_of_cmp_olt _ _ p
    rw [inf_f32] at q
    exact real_of_abs_lt_top _ q
  · have p := Host.reduce_andi_all _ _ _ _ _ e1 i
    have q : max (a1 i) (-(a1 i)) < Ideal.ofBits .f32 0x7F800000#32 := lt_of_cmp_olt _ _ p
    rw [inf_f32] at q
    exact real_of_abs_lt_top _ q

end Cert.Finite

end
-- ==== Proof.lean ====
/-
  A 3-D colour table applied to an image by trilinear interpolation: the kernel against its reference.

  Both programs return the table with a leading unit axis, and, for every channel `ch` and pixel `(h, w)`, the table's
  channel `ch` interpolated at the point whose coordinates are the pixel's three inputs scaled to [0, 32] and clipped.
  The reference takes each coordinate's floor and fraction, gathers the eight neighbouring table entries (the upper
  neighbour capped at the last node) and blends them along x, then y, then z.  The kernel gives every node `i` of an
  axis the hat weight `max 0 (1 − |i − coordinate|)`, contracts the combined (z, y) axis against the table with one
  matrix product per image row, and sums the x axis.

  Over the reals the two agree: on [0, 32] the hat weights of an axis vanish except at the floor `n` and at `n + 1`,
  where they are `1 − t` and `t` for the fraction `t` (at the last node the capped neighbour carries weight 0), so each
  axis' weighted sum is the two-point blend, and the triple sum is the nested blend.  Distributing the weights over
  the sums needs finite entries: that is where the precondition is used.  The scaling `((v − 1/2)·2 + 1)·(1/2)·32`
  of the reference is `32·v` on a finite input.  At the ideal instance a change of float format is the identity,
  the matrix product and the lane sum are plain sums, and the floor, the conversion to an integer and the gather are
  exact on [0, 32].

  The modules: `HatSum` (the identity over the reals), `Scalars` (extended reals against reals), `Bridge` (the two
  programs' elements are one real number), `Finite` (the precondition gives real entries); `KernelSpec`, `KernelPay`,
  `KernelIdx`, `KernelAt`, `KernelValue` (the kernel's result array and its run); `RefSpec`, `RefGather`,
  `RefValue` (the reference's result at one element) over the reference's run and its read-at-an-index lemmas.
-/
import proofs.«105660_j3358664425833_2_alg».proof.Defs
import proofs.«105660_j3358664425833_2_alg».proof.Proof.Gen.Kernel
import proofs.«105660_j3358664425833_2_alg».proof.Proof.Gen.Kernel.Skeleton
import proofs.«105660_j3358664425833_2_alg».proof.Proof.Gen.Kernel.Launch
import proofs.«105660_j3358664425833_2_alg».proof.Proof.Gen.Kernel.Points
import proofs.«105660_j3358664425833_2_alg».proof.Proof.Gen.Kernel.Frame
import proofs.«105660_j3358664425833_2_alg».proof.Proof.Gen.KernelIdeal
import proofs.«105660_j3358664425833_2_alg».proof.Proof.Gen.KernelIdeal.Skeleton
import proofs.«105660_j3358664425833_2_alg».proof.Proof.Gen.KernelIdeal.Launch
import proofs.«105660_j3358664425833_2_alg».proof.Proof.Gen.KernelIdeal.Points
import proofs.«105660_j3358664425833_2_alg».proof.Proof.Gen.KernelIdeal.Frame
import proofs.«105660_j3358664425833_2_alg».proof.Proof.Gen.ReferenceIdeal
import proofs.«105660_j3358664425833_2_alg».proof.Proof.Gen.Pre_finite_inputs
import proofs.«105660_j3358664425833_2_alg».proof.Proof.KernelValue
import proofs.«105660_j3358664425833_2_alg».proof.Proof.RefValue
import proofs.«105660_j3358664425833_2_alg».proof.Proof.Bridge
import proofs.«105660_j3358664425833_2_alg».proof.Proof.Finite
import Idealize.ShloMosaic.Adequacy
import Idealize.ShloMosaic.Init

noncomputable section

namespace Cert.Proof

open Idealize.ShloMosaic Idealize.SL.Sem Idealize.ShloMosaic.ValueIdx

/-! ## The frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-! ## One element -/

/-- On arrays of real entries the reference's element and the kernel's element are one number. -/
theorem elem_eq (A : FVec Ideal Cert.KernelIdeal.S3x33x33x33 .f32) (B : FVec Ideal Cert.KernelIdeal.S1x3x2048x2048 .f32)
    (hA : ∀ i, ∃ r : ℝ, A i = ((r : ℝ) : EReal)) (hB : ∀ i, ∃ r : ℝ, B i = ((r : ℝ) : EReal))
    (ch : Fin 3) (h w : Fin 2048) :
    Cert.ReferenceIdeal.Hand.RefSpec A B ch h w = Cert.KernelIdeal.Pay.KSpec A B ch h w := by
  choose L hL using hA
  choose Vr hV using hB
  obtain rfl : A = fun i => ((L i : ℝ) : EReal) := funext hL
  obtain rfl : B = fun i => ((Vr i : ℝ) : EReal) := funext hV
  exact (Cert.Bridge.bridge L Vr ch h w).symm

/-! ## The two runs end with equal results -/

theorem algebraic : Cert.algebraic_KernelIdeal_ReferenceIdeal := by
  intro m ρ m' ρ' hpre hagree
  refine ⟨_, _, Cert.KernelIdeal.Hand.run m ρ, ?_⟩
  refine (θ_run Cert.ReferenceIdeal.defs _ _).mono (fun r h c => ⟨?_, ?_, (h c).2.2.1, (h c).2.2.2⟩)
    (Cert.ReferenceIdeal.Value.run (F := Ideal) m' ρ')
  · -- the table with a unit axis, of arguments that agree
    rw [(h c).1, (hagree c).1]
  · -- the interpolated image, element by element
    rw [(h c).2.1, Cert.ReferenceIdeal.Read.val_main_v250_eq, (hagree c).1, (hagree c).2]
    funext i
    obtain ⟨b0, ch, hh, ww, rfl⟩ : ∃ (b0 : Fin 1) (ch : Fin 3) (hh ww : Fin 2048), i = ix4 b0 ch hh ww :=
      ⟨i 0, i 1, i 2, i 3, eq_ix4 i⟩
    obtain rfl : b0 = 0 := Subsingleton.elim _ _
    obtain ⟨hA, hB⟩ := Cert.Finite.real_of_pre _ _ (hpre c)
    rw [Cert.ReferenceIdeal.Hand.ref_apply]
    exact (elem_eq _ _ hA hB ch hh ww).trans (Cert.KernelIdeal.Hand.Kres_apply _ _ ch hh ww).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
